-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x256 : Shape := ⟨3, ![8, 10000, 256]⟩
abbrev S8x2000x128 : Shape := ⟨3, ![8, 2000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S256x512 : Shape := ⟨2, ![256, 512]⟩
abbrev S_ : Shape := ⟨0, ![]⟩

class Facts : Prop where
  bcast_S_S8x10000x256 : S_.BroadcastsInDim S8x10000x256 (![] : Fin 0 → Fin S8x10000x256.rank)
  reducesTo_S8x10000x256_S_d0_1_2 : S8x10000x256.ReducesTo [0, 1, 2] S_
  h_S_ : 0 < S_.numel
  bcast_S_S8x2000x128 : S_.BroadcastsInDim S8x2000x128 (![] : Fin 0 → Fin S8x2000x128.rank)
  reducesTo_S8x2000x128_S_d0_1_2 : S8x2000x128.ReducesTo [0, 1, 2] S_
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg8 : FVec F S256x512 .f32) (main_arg9 : FVec F S256 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x512 .f32) (main_arg9 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S8x10000x256 .f32) (main_arg1 : FVec F S8x2000x128 .f32) (main_arg2 : IVec S2x800000 32) (main_arg3 : FVec F S800000 .f32) (main_arg4 : FVec F S256x128 .f32) (main_arg5 : FVec F S256 .f32) (main_arg6 : FVec F S256x256 .f32) (main_arg7 : FVec F S256 .f32) (main_arg8 : FVec F S256x512 .f32) (main_arg9 : FVec F S256 .f32) : IVec S_ 1 :=
  let main_v0 : FVec F S8x10000x256 .f32 := Host.absf main_arg0
  let main_cst : FVec F S_ .f32 := constant S_ .f32 0x7F800000#32
  let main_v1 : FVec F S8x10000x256 .f32 := broadcastInDim S8x10000x256 ![] bcast_S_S8x10000x256 main_cst
  let main_v2 : IVec S8x10000x256 1 := cmpf .olt main_v0 main_v1
  let main_c : IVec S_ 1 := constantI S_ 1 1#1
  let main_v3 : IVec S_ 1 := (fun x v => Host.reduce IntOp.andi x v reducesTo_S8x10000x256_S_d0_1_2 h_S_) main_v2 main_c
  let main_v4 : FVec F S8x2000x128 .f32 := Host.absf main_arg1
  let main_cst_0 : FVec F S_ .f32 := constant S_ .f32 0x7F800000#32
  let main_v5 : FVec F S8x2000x128 .f32 := broadcastInDim S8x2000x128 ![] bcast_S_S8x2000x128 main_cst_0
  let main_v6 : IVec S8x2000x128 1 := cmpf .olt main_v4 main_v5
  let main_c_1 : IVec S_ 1 := constantI S_ 1 1#1
  let main_v7 : IVec S_ 1 := (fun x v => Host.reduce IntOp.andi x v reducesTo_S8x2000x128_S_d0_1_2 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S8x10000x256 : Shape := ⟨3, ![8, 10000, 256]⟩
abbrev S8x2000x128 : Shape := ⟨3, ![8, 2000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S256x512 : Shape := ⟨2, ![256, 512]⟩
abbrev S80000x256 : Shape := ⟨2, ![80000, 256]⟩
abbrev S16000x128 : Shape := ⟨2, ![16000, 128]⟩
abbrev S1x800000 : Shape := ⟨2, ![1, 800000]⟩
abbrev S128x256 : Shape := ⟨2, ![128, 256]⟩
abbrev S1x256 : Shape := ⟨2, ![1, 256]⟩
abbrev S16000x256 : Shape := ⟨2, ![16000, 256]⟩
abbrev S4000x128 : Shape := ⟨2, ![4000, 128]⟩
abbrev S4000x256 : Shape := ⟨2, ![4000, 256]⟩
abbrev S_ : Shape := ⟨0, ![]⟩
abbrev S800000x1 : Shape := ⟨2, ![800000, 1]⟩
abbrev S800000x256 : Shape := ⟨2, ![800000, 256]⟩
abbrev S80000 : Shape := ⟨1, ![80000]⟩
abbrev S80000x1 : Shape := ⟨2, ![80000, 1]⟩
abbrev S512x256 : Shape := ⟨2, ![512, 256]⟩
abbrev S2000x256 : Shape := ⟨2, ![2000, 256]⟩
abbrev S2000x1 : Shape := ⟨2, ![2000, 1]⟩

abbrev nBuf : Space → Nat
  | .hbm => 48
  | .vmem => 19
  | .smem => 0
  | _ => 0

abbrev bufTy : (tb : Table) → Fin (tcTables nBuf tb) → BufTy
  | .hbm, ⟨0, _⟩ => ⟨S8x10000x256, .f32⟩
  | .hbm, ⟨1, _⟩ => ⟨S8x2000x128, .f32⟩
  | .hbm, ⟨2, _⟩ => ⟨S2x800000, .i32⟩
  | .hbm, ⟨3, _⟩ => ⟨S800000, .f32⟩
  | .hbm, ⟨4, _⟩ => ⟨S256x128, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S80000x256, .f32⟩
  | .hbm, ⟨11, _⟩ => ⟨S16000x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S128x256, .f32⟩
  | .hbm, ⟨17, _⟩ => ⟨S1x256, .f32⟩
  | .hbm, ⟨18, _⟩ => ⟨S16000x256, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x256, .f32⟩
  | .hbm, ⟨28, _⟩ => ⟨S800000x1, .f32⟩
  | .hbm, ⟨29, _⟩ => ⟨S800000x256, .f32⟩
  | .hbm, ⟨30, _⟩ => ⟨S800000x256, .f32⟩
  | .hbm, ⟨31, _⟩ => ⟨S_, .f32⟩
  | .hbm, ⟨32, _⟩ => ⟨S80000x256, .f32⟩
  | .hbm, ⟨33, _⟩ => ⟨S800000x1, .i32⟩
  | .hbm, ⟨34, _⟩ => ⟨S80000x256, .f32⟩
  | .hbm, ⟨35, _⟩ => ⟨S_, .f32⟩
  | .hbm, ⟨36, _⟩ => ⟨S80000, .f32⟩
  | .hbm, ⟨37, _⟩ => ⟨S800000x1, .i32⟩
  | .hbm, ⟨38, _⟩ => ⟨S80000, .f32⟩
  | .hbm, ⟨39, _⟩ => ⟨S80000x1, .f32⟩
  | .hbm, ⟨40, _⟩ => ⟨S256x256, .f32⟩
  | .hbm, ⟨41, _⟩ => ⟨S1x256, .f32⟩
  | .hbm, ⟨42, _⟩ => ⟨S512x256, .f32⟩
  | .hbm, ⟨43, _⟩ => ⟨S256x256, .f32⟩
  | .hbm, ⟨44, _⟩ => ⟨S256x256, .f32⟩
  | .hbm, ⟨45, _⟩ => ⟨S1x256, .f32⟩
  | .hbm, ⟨46, _⟩ => ⟨S80000x256, .f32⟩
  | .hbm, ⟨47, _⟩ => ⟨S8x10000x256, .f32⟩
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S2000x256, .f32⟩
  | .local _ .vmem, ⟨7, _⟩ => ⟨S2000x256, .f32⟩
  | .local _ .vmem, ⟨8, _⟩ => ⟨S2000x1, .f32⟩
  | .local _ .vmem, ⟨9, _⟩ => ⟨S2000x1, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | _, _ => ⟨S8x10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S8x10000x256_S80000x256 : S8x10000x256.ShapeCasts S80000x256
  shapeCasts_S8x2000x128_S16000x128 : S8x2000x128.ShapeCasts S16000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x128_S128x256_1_0 : S256x128.Transposes [1, 0] S128x256
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S80000x256 : S_.BroadcastsInDim S80000x256 (![] : Fin 0 → Fin S80000x256.rank)
  bcast_S_S80000 : S_.BroadcastsInDim S80000 (![] : Fin 0 → Fin S80000.rank)
  shapeCasts_S80000_S80000x1 : S80000.ShapeCasts S80000x1
  transposes_S256x256_S256x256_1_0 : S256x256.Transposes [1, 0] S256x256
  transposes_S256x512_S512x256_1_0 : S256x512.Transposes [1, 0] S512x256
  slices_S512x256_S256x256_0_0 : S512x256.Slices ![0, 0] S256x256
  slices_S512x256_S256x256_256_0 : S512x256.Slices ![256, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S2000x256 : S1x256.Broadcasts S2000x256
  shapeCasts_S80000x256_S8x10000x256 : S80000x256.ShapeCasts S8x10000x256
  dot_S4000x128_S128x256_S4000x256_1_0_0_1_n_n_wf : DotDims.WF S4000x128 S128x256 S4000x256 [1] [0] [0] [1] [] []
  gather_S16000x256_S800000x1_S800000x256_1_0_n_n_0_1_1256_wf : GatherDims.WF S16000x256 S800000x1 S800000x256 [1] [0] [] [0] [] 1 ![1, 256]
  scatter_S80000x256_S800000x1_S800000x256_1_0_0_1_wf : ScatterDims.WF S80000x256 S800000x1 S800000x256 [1] [0] [0] 1
  scatter_S80000_S800000x1_S800000_n_0_0_1_wf : ScatterDims.WF S80000 S800000x1 S800000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S16000x128.size a
  hwx0_0 : ∀ i : grid0.Coords, EltTy.bits .f32 = 32 ∨ (Rect.block (s := S16000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S16000x256.size a
  hwx0_3 : ∀ i : grid0.Coords, EltTy.bits .f32 = 32 ∨ (Rect.block (s := S16000x256) S4000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S80000x256.size a
  hwx1_0 : ∀ i : grid1.Coords, EltTy.bits .f32 = 32 ∨ (Rect.block (s := S80000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S80000x1.size a
  hwx1_1 : ∀ i : grid1.Coords, EltTy.bits .f32 = 32 ∨ (Rect.block (s := S80000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S80000x256.size a
  hwx1_2 : ∀ i : grid1.Coords, EltTy.bits .f32 = 32 ∨ (Rect.block (s := S80000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S80000x256.size a
  hwx1_8 : ∀ i : grid1.Coords, EltTy.bits .f32 = 32 ∨ (Rect.block (s := S80000x256) S2000x256.size (cc1_transform_8 i) (hinb1_8 i)).WholeWords (EltTy.packing .f32)

variable [Facts₀]

def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S16000x256_S800000x1_S800000x256_1_0_n_n_0_1_1256 : GatherDims S16000x256 S800000x1 S800000x256 where
  offsetDims := [1]
  collapsedSliceDims := [0]
  operandBatchingDims := []
  startIndicesBatchingDims := []
  startIndexMap := [0]
  indexVectorDim := 1
  sliceSizes := ![1, 256]
  wf := gather_S16000x256_S800000x1_S800000x256_1_0_n_n_0_1_1256_wf
def scatter_S80000x256_S800000x1_S800000x256_1_0_0_1 : ScatterDims S80000x256 S800000x1 S800000x256 where
  updateWindowDims := [1]
  insertedWindowDims := [0]
  scatterDimsToOperandDims := [0]
  indexVectorDim := 1
  wf := scatter_S80000x256_S800000x1_S800000x256_1_0_0_1_wf
def scatter_S80000_S800000x1_S800000_n_0_0_1 : ScatterDims S80000 S800000x1 S800000 where
  updateWindowDims := []
  insertedWindowDims := [0]
  scatterDimsToOperandDims := [0]
  indexVectorDim := 1
  wf := scatter_S80000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x10000x256 : Shape := ⟨3, ![8, 10000, 256]⟩
abbrev S8x2000x128 : Shape := ⟨3, ![8, 2000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S256x512 : Shape := ⟨2, ![256, 512]⟩
abbrev S80000x256 : Shape := ⟨2, ![80000, 256]⟩
abbrev S16000x128 : Shape := ⟨2, ![16000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S800000x256 : Shape := ⟨2, ![800000, 256]⟩
abbrev S1x256 : Shape := ⟨2, ![1, 256]⟩
abbrev S80000 : Shape := ⟨1, ![80000]⟩
abbrev S80000x1 : Shape := ⟨2, ![80000, 1]⟩
abbrev S80000x512 : Shape := ⟨2, ![80000, 512]⟩
abbrev S512x256 : Shape := ⟨2, ![512, 256]⟩

abbrev nBuf : Space → Nat
  | .hbm => 63
  | .vmem => 0
  | .smem => 0
  | _ => 0

abbrev bufTy : (tb : Table) → Fin (tcTables nBuf tb) → BufTy
  | .hbm, ⟨0, _⟩ => ⟨S8x10000x256, .f32⟩
  | .hbm, ⟨1, _⟩ => ⟨S8x2000x128, .f32⟩
  | .hbm, ⟨2, _⟩ => ⟨S2x800000, .i32⟩
  | .hbm, ⟨3, _⟩ => ⟨S800000, .f32⟩
  | .hbm, ⟨4, _⟩ => ⟨S256x128, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S80000x256, .f32⟩
  | .hbm, ⟨11, _⟩ => ⟨S16000x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S128x256, .f32⟩
  | .hbm, ⟨26, _⟩ => ⟨S800000x256, .f32⟩
  | .hbm, ⟨27, _⟩ => ⟨S1x256, .f32⟩
  | .hbm, ⟨28, _⟩ => ⟨S800000x256, .f32⟩
  | .hbm, ⟨29, _⟩ => ⟨S800000x256, .f32⟩
  | .hbm, ⟨30, _⟩ => ⟨S800000x1, .f32⟩
  | .hbm, ⟨31, _⟩ => ⟨S800000x256, .f32⟩
  | .hbm, ⟨32, _⟩ => ⟨S800000x256, .f32⟩
  | .hbm, ⟨33, _⟩ => ⟨S_, .f32⟩
  | .hbm, ⟨34, _⟩ => ⟨S80000x256, .f32⟩
  | .hbm, ⟨35, _⟩ => ⟨S800000x1, .i32⟩
  | .hbm, ⟨36, _⟩ => ⟨S80000x256, .f32⟩
  | .hbm, ⟨37, _⟩ => ⟨S_, .f32⟩
  | .hbm, ⟨38, _⟩ => ⟨S80000, .f32⟩
  | .hbm, ⟨39, _⟩ => ⟨S800000x1, .i32⟩
  | .hbm, ⟨40, _⟩ => ⟨S80000, .f32⟩
  | .hbm, ⟨41, _⟩ => ⟨S_, .f32⟩
  | .hbm, ⟨42, _⟩ => ⟨S_, .f32⟩
  | .hbm, ⟨43, _⟩ => ⟨S80000, .f32⟩
  | .hbm, ⟨44, _⟩ => ⟨S80000, .f32⟩
  | .hbm, ⟨45, _⟩ => ⟨S80000x1, .f32⟩
  | .hbm, ⟨46, _⟩ => ⟨S80000x256, .f32⟩
  | .hbm, ⟨47, _⟩ => ⟨S80000x256, .f32⟩
  | .hbm, ⟨48, _⟩ => ⟨S256x256, .f32⟩
  | .hbm, ⟨49, _⟩ => ⟨S80000x256, .f32⟩
  | .hbm, ⟨50, _⟩ => ⟨S1x256, .f32⟩
  | .hbm, ⟨51, _⟩ => ⟨S80000x256, .f32⟩
  | .hbm, ⟨52, _⟩ => ⟨S80000x256, .f32⟩
  | .hbm, ⟨53, _⟩ => ⟨S80000x512, .f32⟩
  | .hbm, ⟨54, _⟩ => ⟨S512x256, .f32⟩
  | .hbm, ⟨55, _⟩ => ⟨S80000x256, .f32⟩
  | .hbm, ⟨56, _⟩ => ⟨S1x256, .f32⟩
  | .hbm, ⟨57, _⟩ => ⟨S80000x256, .f32⟩
  | .hbm, ⟨58, _⟩ => ⟨S80000x256, .f32⟩
  | .hbm, ⟨59, _⟩ => ⟨S_, .f32⟩
  | .hbm, ⟨60, _⟩ => ⟨S80000x256, .f32⟩
  | .hbm, ⟨61, _⟩ => ⟨S80000x256, .f32⟩
  | .hbm, ⟨62, _⟩ => ⟨S8x10000x256, .f32⟩
  | _, _ => ⟨S8x10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call1_cst : Ref sig .tc := ⟨.hbm, 59, rfl⟩
abbrev main_call1_v0 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  shapeCasts_S8x10000x256_S80000x256 : S8x10000x256.ShapeCasts S80000x256
  shapeCasts_S8x2000x128_S16000x128 : S8x2000x128.ShapeCasts S16000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S256x128_S128x256_1_0 : S256x128.Transposes [1, 0] S128x256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S800000x1_S800000x256_0_1 : S800000x1.BroadcastsInDim S800000x256 (![0, 1] : Fin 2 → Fin S800000x256.rank)
  bcast_S_S80000x256 : S_.BroadcastsInDim S80000x256 (![] : Fin 0 → Fin S80000x256.rank)
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x256_0_1 : S80000x1.BroadcastsInDim S80000x256 (![0, 1] : Fin 2 → Fin S80000x256.rank)
  transposes_S256x256_S256x256_1_0 : S256x256.Transposes [1, 0] S256x256
  bcast_S1x256_S80000x256_0_1 : S1x256.BroadcastsInDim S80000x256 (![0, 1] : Fin 2 → Fin S80000x256.rank)
  concatenates_S80000x256_S80000x256_S80000x512_d1 : Shape.Concatenates [S80000x256, S80000x256] S80000x512 1
  transposes_S256x512_S512x256_1_0 : S256x512.Transposes [1, 0] S512x256
  shapeCasts_S80000x256_S8x10000x256 : S80000x256.ShapeCasts S8x10000x256
  gather_S16000x128_S800000x1_S800000x128_1_0_n_n_0_1_1128_wf : GatherDims.WF S16000x128 S800000x1 S800000x128 [1] [0] [] [0] [] 1 ![1, 128]
  dot_S800000x128_S128x256_S800000x256_1_0_0_1_n_n_wf : DotDims.WF S800000x128 S128x256 S800000x256 [1] [0] [0] [1] [] []
  scatter_S80000x256_S800000x1_S800000x256_1_0_0_1_wf : ScatterDims.WF S80000x256 S800000x1 S800000x256 [1] [0] [0] 1
  scatter_S80000_S800000x1_S800000_n_0_0_1_wf : ScatterDims.WF S80000 S800000x1 S800000 [] [0] [0] 1
  dot_S80000x256_S256x256_S80000x256_1_0_0_1_n_n_wf : DotDims.WF S80000x256 S256x256 S80000x256 [1] [0] [0] [1] [] []
  dot_S80000x512_S512x256_S80000x256_1_0_0_1_n_n_wf : DotDims.WF S80000x512 S512x256 S80000x256 [1] [0] [0] [1] [] []

variable [Facts₀]

def gather_S16000x128_S800000x1_S800000x128_1_0_n_n_0_1_1128 : GatherDims S16000x128 S800000x1 S800000x128 where
  offsetDims := [1]
  collapsedSliceDims := [0]
  operandBatchingDims := []
  startIndicesBatchingDims := []
  startIndexMap := [0]
  indexVectorDim := 1
  sliceSizes := ![1, 128]
  wf := gather_S16000x128_S800000x1_S800000x128_1_0_n_n_0_1_1128_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def scatter_S80000x256_S800000x1_S800000x256_1_0_0_1 : ScatterDims S80000x256 S800000x1 S800000x256 where
  updateWindowDims := [1]
  insertedWindowDims := [0]
  scatterDimsToOperandDims := [0]
  indexVectorDim := 1
  wf := scatter_S80000x256_S800000x1_S800000x256_1_0_0_1_wf
def scatter_S80000_S800000x1_S800000_n_0_0_1 : ScatterDims S80000 S800000x1 S800000 where
  updateWindowDims := []
  insertedWindowDims := [0]
  scatterDimsToOperandDims := [0]
  indexVectorDim := 1
  wf := scatter_S80000_S800000x1_S800000_n_0_0_1_wf
def dot_S80000x256_S256x256_S80000x256_1_0_0_1_n_n : DotDims S80000x256 S256x256 S80000x256 where
  lhsContracting := [1]
  rhsContracting := [0]
  lhsNonContracting := [0]
  rhsNonContracting := [1]
  lhsBatch := []
  rhsBatch := []
  wf := dot_S80000x256_S256x256_S80000x256_1_0_0_1_n_n_wf
def dot_S80000x512_S512x256_S80000x256_1_0_0_1_n_n : DotDims S80000x512 S512x256 S80000x256 where
  lhsContracting := [1]
  rhsContracting := [0]
  lhsNonContracting := [0]
  rhsNonContracting := [1]
  lhsBatch := []
  rhsBatch := []
  wf := dot_S80000x512_S512x256_S80000x256_1_0_0_1_n_n_wf

class Facts : Prop extends Facts₀ where

variable [Facts]
-- ==== Proof.KRun.lean ====
/-
  The idealized kernel's run, with its result named.

  @main is five segments: a stretch of host operations, the table-linear region, a second stretch (gather, weighting,
  the two segment sums, the weight slices), the update region, and the closing reshape. Every weakly fair execution
  passes through the same buffer contents at the segment boundaries; the final state holds, at every unscoped buffer,
  the contents at the last boundary. Read at the result buffer that gives the result; read at an argument it gives the
  argument as launched.
-/
import proofs.«106027_j48077863912208_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and every argument as launched. -/
theorem run_out : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Out

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.KPay0.lean ====
/-
  The table-linear tile at an entry.

  The body multiplies a 4000×128 tile of attribute rows by the 128×256 weight tile (the change of float format before the
  product is the identity on exact values) and adds the 1×256 bias row stretched over the rows: entry (p, q) is the sum
  over k of x[p, k] · w[k, q], plus b[0, q].
-/
import proofs.«106027_j48077863912208_2_alg».proof.Proof.Gen.KernelIdeal.Skeleton
import proofs.«106027_j48077863912208_2_alg».proof.Proof.LibTileOps
import Idealize.ShloMosaic.PureOps.Ideal.Laws
import Idealize.ShloMosaic.Lib.ValueIdx
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-- The 4000×128 by 128×256 product into the zero tile, at (a, b). -/
theorem mm4000 {φ₁ φ₂ : FTy} (A : FVec Ideal S4000x128 φ₁) (B : FVec Ideal S128x256 φ₂) (a : Fin 4000) (b : Fin 256) :
    matmul dot_S4000x128_S128x256_S4000x256_1_0_0_1_n_n none A B (constant S4000x256 .f32 0x00000000#32) (ix2 a b)
      = ∑ c : Fin 128, A (ix2 a c) * B (ix2 c b) :=
  TileOps.matmul_zero_apply dot_S4000x128_S128x256_S4000x256_1_0_0_1_n_n.wf none A B a b

/-- The table-linear tile at (p, q). -/
theorem table_tile_apply (x : Vec Ideal S4000x128 .f32) (w : Vec Ideal S128x256 .f32) (b : Vec Ideal S1x256 .f32)
    (p : Fin 4000) (q : Fin 256) :
    k0_pay1 (F := Ideal) x w b (ix2 p q) = (∑ k : Fin 128, x (ix2 p k) * w (ix2 k q)) + b (ix2 (0 : Fin 1) q) := by
  unfold k0_pay1
  rw [addf_apply, mm4000, TileOps.broadcastRow_apply]
  simp only [shapeCast_self, truncf_apply]

end Cert.KernelIdeal.Tile

end
-- ==== Proof.Spec.lean ====
/-
  The layer as one function of its arrays, index by index, over the extended reals.

  An attribute row r of the table is sent through the attribute-to-object linear map: entry j of its image is
  the sum over the attribute coordinates k of x[r, k] · wt[k, j], plus the bias b[j].
  An object row n, with agg[n, ·] the weighted sum of the messages that land on it and ws[n] the sum of their weights,
  is updated to relu (obj[n, ·] · top + proj[n, ·] · bot + bu), where proj[n, ·] = (agg[n, ·] / max (ws[n]) eps) · wp + bp and
  top, bot are the upper and lower 256 rows of the 512-row update matrix wu.
-/
import Idealize.ShloMosaic.PureOps.Ideal
import Idealize.ShloMosaic.Lib.ValueIdx

noncomputable section

open scoped BigOperators

namespace Cert.Layer

open Idealize.ShloMosaic Idealize.ShloMosaic.ValueIdx

/-- The linear image of the attribute table: row r, column j. -/
def tableOf (x : (⟨2, ![16000, 128]⟩ : Shape).Idx → EReal) (wt : (⟨2, ![128, 256]⟩ : Shape).Idx → EReal)
    (b : (⟨1, ![256]⟩ : Shape).Idx → EReal) : (⟨2, ![16000, 256]⟩ : Shape).Idx → EReal :=
  fun i => (∑ k : Fin 128, x (ix2 (i 0) k) * wt (ix2 k (i 1))) + b (ix1 (i 1))

/-- The projected message of object row n, column k. -/
def projOf (eps : EReal) (agg : (⟨2, ![80000, 256]⟩ : Shape).Idx → EReal) (ws : (⟨1, ![80000]⟩ : Shape).Idx → EReal)
    (wp : (⟨2, ![256, 256]⟩ : Shape).Idx → EReal) (bp : (⟨1, ![256]⟩ : Shape).Idx → EReal) (n : Fin 80000) (k : Fin 256) : EReal :=
  (∑ l : Fin 256, Ideal.div (agg (ix2 n l)) (max (ws (ix1 n)) eps) * wp (ix2 l k)) + bp (ix1 k)

/-- The updated object features: row n, column j, from the upper and lower update matrices. -/
def updOf (eps zero : EReal) (agg obj : (⟨2, ![80000, 256]⟩ : Shape).Idx → EReal) (ws : (⟨1, ![80000]⟩ : Shape).Idx → EReal)
    (wp top bot : (⟨2, ![256, 256]⟩ : Shape).Idx → EReal)
    (bp bu : (⟨1, ![256]⟩ : Shape).Idx → EReal) : (⟨2, ![80000, 256]⟩ : Shape).Idx → EReal :=
  fun i => max (((∑ k : Fin 256, obj (ix2 (i 0) k) * top (ix2 k (i 1)))
      + (∑ k : Fin 256, projOf eps agg ws wp bp (i 0) k * bot (ix2 k (i 1)))) + bu (ix1 (i 1))) zero

/-- Position k among the first 256 of 512, and among the last 256. -/
def lo (k : Fin 256) : Fin 512 := ⟨k.val, by have := k.isLt; omega⟩
def hi (k : Fin 256) : Fin 512 := ⟨256 + k.val, by have := k.isLt; omega⟩

/-- The upper 256 rows of a 512-row matrix. -/
def topOf (wu : (⟨2, ![512, 256]⟩ : Shape).Idx → EReal) : (⟨2, ![256, 256]⟩ : Shape).Idx → EReal :=
  fun i => wu (ix2 (lo (i 0)) (i 1))

/-- The lower 256 rows of a 512-row matrix. -/
def botOf (wu : (⟨2, ![512, 256]⟩ : Shape).Idx → EReal) : (⟨2, ![256, 256]⟩ : Shape).Idx → EReal :=
  fun i => wu (ix2 (hi (i 0)) (i 1))

/-- A sum over 512 terms is the sum over the first 256 plus the sum over the last 256. -/
theorem sum_halves (f : Fin 512 → EReal) :
    ∑ k : Fin 512, f k = (∑ k : Fin 256, f (lo k)) + ∑ k : Fin 256, f (hi k) :=
  Fin.sum_univ_add (a := 256) (b := 256) f

end Cert.Layer

end
-- ==== Proof.KBlocks0.lean ====
/-
  The table region: what its output array holds when the region ends.

  The grid has four points; point t reads rows 4000·t … 4000·t + 3999 of the attribute table (all 128 columns), the whole
  weight tile and the whole bias row at every point, and writes rows 4000·t … 4000·t + 3999 of the output (all 256
  columns). Row r of the output is therefore written exactly once, by point r / 4000, from row r of the table: the
  output array ends as the linear image of the table, row by row.
-/
import proofs.«106027_j48077863912208_2_alg».proof.Proof.Gen.KernelIdeal.Frame
import proofs.«106027_j48077863912208_2_alg».proof.Proof.KPay0
import proofs.«106027_j48077863912208_2_alg».proof.Proof.Spec
import Idealize.ShloMosaic.PureOps.Ideal
import Idealize.ShloMosaic.Lib.Pipeline.Value
import Idealize.ShloMosaic.Lib.ValueIdx

set_option maxRecDepth 16384

noncomputable section

open scoped BigOperators

namespace Cert.KernelIdeal.TableRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The block indices over the four grid points: the table and the output move with the point along the rows; the
    weight tile and the bias row stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of the tile is one entry of the table's linear image, when the tile's row p of x is the array's row r and
    the weight tile and bias row are the arrays themselves. -/
theorem table_entry (x0 : Vec Ideal S4000x128 .f32) (x1 : Vec Ideal S128x256 .f32) (x2 : Vec Ideal S1x256 .f32)
    (X : S16000x128.Idx → EReal) (Wt : S128x256.Idx → EReal) (B : S1x256.Idx → EReal)
    (p : Fin 4000) (q : Fin 256) (r : Fin 16000)
    (hx : ∀ k : Fin 128, x0 (ix2 p k) = X (ix2 r k))
    (hw : x1 = Wt) (hb : x2 = B) :
    k0_pay1 (F := Ideal) x0 x1 x2 (ix2 p q)
      = Layer.tableOf X Wt (fun j => B (ix2 (0 : Fin 1) (j 0))) (ix2 r q) := by
  subst hw hb
  rw [Tile.table_tile_apply]
  unfold Layer.tableOf
  simp only [hx]

/-- What point t writes back is block t of the table's linear image. -/
theorem flushed_table (c : Dev nD) (t : Fin cfg0.N) :
    (dat0 V c).flushed 3 t = ((cfg0.win 3).blk t).view.read (Elt Ideal)
      (Layer.tableOf (V c main_v1) (V c main_v6) (fun j => V c main_v7 (ix2 (0 : Fin 1) (j 0)))) := by
  show (cfg0.win 3).cut (grid0.coords t) ((dat0 V c).after 3 t) = _
  rw [after0_3]
  unfold out0_3
  rw [View.canon_unit_zero origin2]
  simp only [View.ld_unit_zero (S := S4000x128) origin2, View.ld_unit_zero (S := S128x256) origin2,
    View.ld_unit_zero (S := S1x256) origin2]
  obtain ⟨e00, e01, e10, e11, e20, e21, e30, e31⟩ := block_indices t
  have hN : grid0.N = 4 := N_0
  have ht : t.val < 4 := by have h : t.val < grid0.N := t.isLt; omega
  funext j
  obtain ⟨p, q, rfl⟩ : ∃ (p : Fin 4000) (q : Fin 256), j = ix2 p q := ⟨j 0, j 1, eq_ix2 j⟩
  have hp : p.val < 4000 := p.isLt
  have hr : t.val * 4000 + p.val < 16000 := by omega
  have hemb : ((cfg0.win 3).blk t).view.emb (ix2 p q) = ix2 (⟨t.val * 4000 + p.val, hr⟩ : Fin 16000) q := by
    funext a; apply Fin.ext
    match a with
    | ⟨0, _⟩ => show win0_3.index t (0 : Fin 2) * 4000 + 1 * p.val = t.val * 4000 + p.val; omega
    | ⟨1, _⟩ => show win0_3.index t (1 : Fin 2) * 256 + 1 * q.val = q.val; omega
  show k0_pay1 (iblk0 V c 0 t) (iblk0 V c 1 t) (iblk0 V c 2 t) (ix2 p q)
    = Layer.tableOf (V c main_v1) (V c main_v6) (fun j => V c main_v7 (ix2 (0 : Fin 1) (j 0)))
        (((cfg0.win 3).blk t).view.emb (ix2 p q))
  refine (table_entry (iblk0 V c 0 t) (iblk0 V c 1 t) (iblk0 V c 2 t) (V c main_v1) (V c main_v6) (V c main_v7) p q
    ⟨t.val * 4000 + p.val, hr⟩ ?_ ?_ ?_).trans
    (congrArg (Layer.tableOf (V c main_v1) (V c main_v6) (fun j => V c main_v7 (ix2 (0 : Fin 1) (j 0)))) hemb.symm)
  · intro k
    show V c main_v1 (((cfg0.win 0).blk t).view.emb (ix2 p k)) = _
    refine congrArg (V c main_v1) (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  · funext y
    show V c main_v6 (((cfg0.win 1).blk t).view.emb y) = V c main_v6 y
    refine congrArg (V c main_v6) (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  · funext y
    show V c main_v7 (((cfg0.win 2).blk t).view.emb y) = V c main_v7 y
    refine congrArg (V c main_v7) (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega

/-- An index of the output array is in point t's block iff each coordinate is in the block's range on its axis. -/
theorem mem_block (t : Fin cfg0.N) (i : S16000x256.Idx) :
    i ∈ ((cfg0.win 3).blk t).view.set ↔ ∀ a : Fin 2, win0_3.index t a * S4000x256.size a ≤ (i a).val
      ∧ (i a).val < win0_3.index t a * S4000x256.size a + S4000x256.size a := by
  show i ∈ ((View.whole main_v8).slice (win0_3.rect t)).set ↔ _
  rw [View.set_slice_whole, Rect.mem_set_unit]
  exact Iff.rfl

/-- Row r of the output is in the block of point r / 4000. -/
theorem covered (i : S16000x256.Idx) :
    ∃ t : Fin cfg0.N, (cfg0.win 3).flush t = true ∧ i ∈ ((cfg0.win 3).blk t).view.set := by
  have hi0 : (i 0).val < 16000 := (i 0).isLt
  have hi1 : (i 1).val < 256 := (i 1).isLt
  have hN : grid0.N = 4 := N_0
  have ht : (i 0).val / 4000 < cfg0.N := by show (i 0).val / 4000 < grid0.N; omega
  obtain ⟨-, -, -, -, -, -, e30, e31⟩ := block_indices ⟨(i 0).val / 4000, ht⟩
  refine ⟨⟨(i 0).val / 4000, ht⟩, flush0_3 _, ?_⟩
  rw [mem_block]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, ht⟩ (1 : Fin 2) * 256 ≤ (i 1).val
      ∧ (i 1).val < win0_3.index ⟨(i 0).val / 4000, ht⟩ (1 : Fin 2) * 256 + 256
    omega

/-- The output array when the region ends: the linear image of the table as the region found it. -/
theorem table_array (c : Dev nD) :
    (dat0 V c).arrAt 3 cfg0.N
      = Layer.tableOf (V c main_v1) (V c main_v6) (fun j => V c main_v7 (ix2 (0 : Fin 1) (j 0))) :=
  (dat0 V c).arrAt_eq_of_cover 3 _ (fun t _ => flushed_table V c t) covered

end Cert.KernelIdeal.TableRegion

end
-- ==== Proof.LibColForm.lean ====
/-
  A column read at an index: a vector recast as a one-column matrix, and a one-column matrix stretched along its rows.
-/
import Idealize.ShloMosaic.Lib.ValueIdx
import Idealize.ShloMosaic.Lib.Pipeline.Value

namespace Cert.ColForm

open Idealize.ShloMosaic Idealize.ShloMosaic.ValueIdx

/-- A vector of length `n` recast as an `n × 1` matrix, read at row `j` and column `0`, is the vector at `j`: both
    positions are the `j`-th in row-major order. -/
theorem col_of_reshape {α : Type} {n : Nat} (v : (⟨1, ![n]⟩ : Shape).Idx → α)
    (h : (⟨1, ![n]⟩ : Shape).ShapeCasts ⟨2, ![n, 1]⟩) (j : Fin n) :
    shapeCast (⟨2, ![n, 1]⟩ : Shape) v h (ix2 j (0 : Fin 1)) = v (ix1 j) := by
  refine shapeCast_apply v h (ix2 j (0 : Fin 1)) (ix1 j) ?_
  rw [Shape.rowMajor_val_one, Shape.rowMajor_val_two]
  show j.val = j.val * 1 + 0
  omega

/-- An `m × 1` column stretched to `m × n` reads, at `(a, b)`, the column's entry `a`. -/
theorem broadcastCol_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun ax => ?_
  match ax with
  | ⟨0, _⟩ =>
    show a.val = if m = 1 then 0 else a.val
    by_cases hm : m = 1
    · rw [if_pos hm]; have := a.isLt; omega
    · rw [if_neg hm]
  | ⟨1, _⟩ => rfl

end Cert.ColForm
-- ==== Proof.KPay1.lean ====
/-
  The update tile at an entry.

  For a tile of 2000 object rows the body divides the aggregated messages by the row's weight sum floored at eps,
  projects them (256×256 weights, bias row), and adds the product of the object rows with the upper update weights to
  the product of the projected rows with the lower update weights, then the bias row, then relu. Entry (p, q):
    max ((Σ_k obj[p,k]·top[k,q] + Σ_k (Σ_l (agg[p,l] / max ws[p,0] eps)·wp[l,k] + bp[0,k])·bot[k,q]) + bu[0,q]) 0.
  The changes of float format in between are the identity on exact values.
-/
import proofs.«106027_j48077863912208_2_alg».proof.Proof.Gen.KernelIdeal.Skeleton
import proofs.«106027_j48077863912208_2_alg».proof.Proof.LibTileOps
import proofs.«106027_j48077863912208_2_alg».proof.Proof.LibColForm
import Idealize.ShloMosaic.PureOps.Ideal.Laws
import Idealize.ShloMosaic.Lib.ValueIdx
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-- The 2000×256 by 256×256 product into the zero tile, at (a, b). -/
theorem mm2000 {φ₁ φ₂ : FTy} (A : FVec Ideal S2000x256 φ₁) (B : FVec Ideal S256x256 φ₂) (a : Fin 2000) (b : Fin 256) :
    matmul dot_S2000x256_S256x256_S2000x256_1_0_0_1_n_n none A B (constant S2000x256 .f32 0x00000000#32) (ix2 a b)
      = ∑ c : Fin 256, A (ix2 a c) * B (ix2 c b) :=
  TileOps.matmul_zero_apply dot_S2000x256_S256x256_S2000x256_1_0_0_1_n_n.wf none A B a b

/-- The update tile at (p, q). -/
theorem update_tile_apply (agg : Vec Ideal S2000x256 .f32) (ws : Vec Ideal S2000x1 .f32) (wp : Vec Ideal S256x256 .f32)
    (bp : Vec Ideal S1x256 .f32) (obj : Vec Ideal S2000x256 .f32) (top bot : Vec Ideal S256x256 .f32)
    (bu : Vec Ideal S1x256 .f32) (p : Fin 2000) (q : Fin 256) :
    k1_pay1 (F := Ideal) agg ws wp bp obj top bot bu (ix2 p q)
      = max (((∑ k : Fin 256, obj (ix2 p k) * top (ix2 k q))
          + (∑ k : Fin 256, ((∑ l : Fin 256, Ideal.div (agg (ix2 p l))
                (max (ws (ix2 p (0 : Fin 1))) (Ideal.ofBits .f32 0x358637BD#32)) * wp (ix2 l k))
              + bp (ix2 (0 : Fin 1) k)) * bot (ix2 k q)))
          + bu (ix2 (0 : Fin 1) q)) (Ideal.ofBits .f32 0x00000000#32) := by
  unfold k1_pay1
  simp only [shapeCast_self]
  rw [maximumf_apply, addf_apply, addf_apply, mm2000, mm2000, TileOps.broadcastRow_apply, broadcast_apply]
  simp only [truncf_apply, addf_apply, mm2000, TileOps.broadcastRow_apply, divf_apply, Cert.ColForm.broadcastCol_apply,
    maximumf_apply, broadcast_apply]
  rfl

end Cert.KernelIdeal.Tile

end
-- ==== Proof.KBlocks1.lean ====
/-
  The update region: what its output array holds when the region ends.

  The grid has forty points; point t reads rows 2000·t … 2000·t + 1999 of the aggregated messages, of the weight sums
  (a column) and of the object features, the whole projection and update weights and bias rows at every point, and writes
  rows 2000·t … 2000·t + 1999 of the output. Row n of the output is written exactly once, by point n / 2000, from row n of
  the three row-blocked arrays: the output array ends as the updated features, row by row.
-/
import proofs.«106027_j48077863912208_2_alg».proof.Proof.Gen.KernelIdeal.Frame
import proofs.«106027_j48077863912208_2_alg».proof.Proof.KPay1
import proofs.«106027_j48077863912208_2_alg».proof.Proof.Spec
import Idealize.ShloMosaic.PureOps.Ideal
import Idealize.ShloMosaic.Lib.Pipeline.Value
import Idealize.ShloMosaic.Lib.ValueIdx

set_option maxRecDepth 16384

noncomputable section

open scoped BigOperators

namespace Cert.KernelIdeal.UpdateRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The block indices over the forty grid points: the aggregated messages, the weight sums, the object features and the
    output move with the point along the rows; the weights and bias rows stay. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- One entry of the tile is one entry of the updated features, when the tile's row p of the three row-blocked arrays is
    the arrays' row r and the weight tiles and bias rows are the arrays themselves. -/
theorem update_entry (a0 : Vec Ideal S2000x256 .f32) (a1 : Vec Ideal S2000x1 .f32) (a2 : Vec Ideal S2000x256 .f32)
    (a3 : Vec Ideal S256x256 .f32) (a4 : Vec Ideal S1x256 .f32) (a5 a6 : Vec Ideal S256x256 .f32)
    (a7 : Vec Ideal S1x256 .f32)
    (AGG OBJ : S80000x256.Idx → EReal) (WS : S80000x1.Idx → EReal) (WP TOP BOT : S256x256.Idx → EReal)
    (BP BU : S1x256.Idx → EReal)
    (p : Fin 2000) (q : Fin 256) (r : Fin 80000)
    (hagg : ∀ l : Fin 256, a0 (ix2 p l) = AGG (ix2 r l))
    (hws : a1 (ix2 p (0 : Fin 1)) = WS (ix2 r (0 : Fin 1)))
    (hobj : ∀ k : Fin 256, a2 (ix2 p k) = OBJ (ix2 r k))
    (h3 : a3 = WP) (h4 : a4 = BP) (h5 : a5 = TOP) (h6 : a6 = BOT) (h7 : a7 = BU) :
    k1_pay1 (F := Ideal) a0 a1 a3 a4 a2 a5 a6 a7 (ix2 p q)
      = Layer.updOf (Ideal.ofBits .f32 0x358637BD#32) (Ideal.ofBits .f32 0x00000000#32) AGG OBJ
          (fun n => WS (ix2 (n 0) (0 : Fin 1))) WP TOP BOT (fun k => BP (ix2 (0 : Fin 1) (k 0)))
          (fun k => BU (ix2 (0 : Fin 1) (k 0))) (ix2 r q) := by
  subst h3 h4 h5 h6 h7
  rw [Tile.update_tile_apply]
  unfold Layer.updOf Layer.projOf
  simp only [hagg, hws, hobj]

/-- What point t writes back is block t of the updated features. -/
theorem flushed_update (c : Dev nD) (t : Fin cfg1.N) :
    (dat1 V c).flushed 8 t = ((cfg1.win 8).blk t).view.read (Elt Ideal)
      (Layer.updOf (Ideal.ofBits .f32 0x358637BD#32) (Ideal.ofBits .f32 0x00000000#32) (V c main_v21) (V c main_v0)
        (fun n => V c main_v25 (ix2 (n 0) (0 : Fin 1))) (V c main_v26) (V c main_v29) (V c main_v30)
        (fun k => V c main_v27 (ix2 (0 : Fin 1) (k 0))) (fun k => V c main_v31 (ix2 (0 : Fin 1) (k 0)))) := by
  show (cfg1.win 8).cut (grid1.coords t) ((dat1 V c).after 8 t) = _
  rw [after1_8]
  unfold out1_8
  rw [View.canon_unit_zero origin2]
  simp only [View.ld_unit_zero (S := S2000x256) origin2, View.ld_unit_zero (S := S2000x1) origin2,
    View.ld_unit_zero (S := S256x256) origin2, View.ld_unit_zero (S := S1x256) origin2]
  obtain ⟨e00, e01, e10, e11, e20, e21, e30, e31, e40, e41, e50, e51, e60, e61, e70, e71, e80, e81⟩ := block_indices t
  have hN : grid1.N = 40 := N_1
  have ht : t.val < 40 := by have h : t.val < grid1.N := t.isLt; omega
  funext j
  obtain ⟨p, q, rfl⟩ : ∃ (p : Fin 2000) (q : Fin 256), j = ix2 p q := ⟨j 0, j 1, eq_ix2 j⟩
  have hp : p.val < 2000 := p.isLt
  have hr : t.val * 2000 + p.val < 80000 := by omega
  have hemb : ((cfg1.win 8).blk t).view.emb (ix2 p q) = ix2 (⟨t.val * 2000 + p.val, hr⟩ : Fin 80000) q := by
    funext a; apply Fin.ext
    match a with
    | ⟨0, _⟩ => show win1_8.index t (0 : Fin 2) * 2000 + 1 * p.val = t.val * 2000 + p.val; omega
    | ⟨1, _⟩ => show win1_8.index t (1 : Fin 2) * 256 + 1 * q.val = q.val; omega
  show k1_pay1 (iblk1 V c 0 t) (iblk1 V c 1 t) (iblk1 V c 3 t) (iblk1 V c 4 t) (iblk1 V c 2 t) (iblk1 V c 5 t)
      (iblk1 V c 6 t) (iblk1 V c 7 t) (ix2 p q)
    = (Layer.updOf (Ideal.ofBits .f32 0x358637BD#32) (Ideal.ofBits .f32 0x00000000#32) (V c main_v21) (V c main_v0)
        (fun n => V c main_v25 (ix2 (n 0) (0 : Fin 1))) (V c main_v26) (V c main_v29) (V c main_v30)
        (fun k => V c main_v27 (ix2 (0 : Fin 1) (k 0))) (fun k => V c main_v31 (ix2 (0 : Fin 1) (k 0))))
        (((cfg1.win 8).blk t).view.emb (ix2 p q))
  refine (update_entry (iblk1 V c 0 t) (iblk1 V c 1 t) (iblk1 V c 2 t) (iblk1 V c 3 t) (iblk1 V c 4 t) (iblk1 V c 5 t)
    (iblk1 V c 6 t) (iblk1 V c 7 t) (V c main_v21) (V c main_v0) (V c main_v25) (V c main_v26) (V c main_v29) (V c main_v30)
    (V c main_v27) (V c main_v31) p q ⟨t.val * 2000 + p.val, hr⟩ ?_ ?_ ?_ ?_ ?_ ?_ ?_ ?_).trans
    (congrArg (Layer.updOf (Ideal.ofBits .f32 0x358637BD#32) (Ideal.ofBits .f32 0x00000000#32) (V c main_v21) (V c main_v0)
        (fun n => V c main_v25 (ix2 (n 0) (0 : Fin 1))) (V c main_v26) (V c main_v29) (V c main_v30)
        (fun k => V c main_v27 (ix2 (0 : Fin 1) (k 0))) (fun k => V c main_v31 (ix2 (0 : Fin 1) (k 0)))) hemb.symm)
  · intro l
    show V c main_v21 (((cfg1.win 0).blk t).view.emb (ix2 p l)) = _
    refine congrArg (V c main_v21) (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * l.val = l.val; omega
  · show V c main_v25 (((cfg1.win 1).blk t).view.emb (ix2 p (0 : Fin 1))) = _
    refine congrArg (V c main_v25) (funext fun a => Fin.ext ?_)
    match a with
    | ⟨0, _⟩ => show win1_1.index t (0 : Fin 2) * 2000 + 1 * p.val = t.val * 2000 + p.val; omega
    | ⟨1, _⟩ => show win1_1.index t (1 : Fin 2) * 1 + 1 * 0 = 0; omega
  · intro k
    show V c main_v0 (((cfg1.win 2).blk t).view.emb (ix2 p k)) = _
    refine congrArg (V c main_v0) (funext fun a => Fin.ext ?_)
    match a with
    | ⟨0, _⟩ => show win1_2.index t (0 : Fin 2) * 2000 + 1 * p.val = t.val * 2000 + p.val; omega
    | ⟨1, _⟩ => show win1_2.index t (1 : Fin 2) * 256 + 1 * k.val = k.val; omega
  · funext y
    show V c main_v26 (((cfg1.win 3).blk t).view.emb y) = V c main_v26 y
    refine congrArg (V c main_v26) (funext fun a => Fin.ext ?_)
    match a with
    | ⟨0, _⟩ => show win1_3.index t (0 : Fin 2) * 256 + 1 * (y 0).val = (y 0).val; omega
    | ⟨1, _⟩ => show win1_3.index t (1 : Fin 2) * 256 + 1 * (y 1).val = (y 1).val; omega
  · funext y
    show V c main_v27 (((cfg1.win 4).blk t).view.emb y) = V c main_v27 y
    refine congrArg (V c main_v27) (funext fun a => Fin.ext ?_)
    match a with
    | ⟨0, _⟩ => show win1_4.index t (0 : Fin 2) * 1 + 1 * (y 0).val = (y 0).val; omega
    | ⟨1, _⟩ => show win1_4.index t (1 : Fin 2) * 256 + 1 * (y 1).val = (y 1).val; omega
  · funext y
    show V c main_v29 (((cfg1.win 5).blk t).view.emb y) = V c main_v29 y
    refine congrArg (V c main_v29) (funext fun a => Fin.ext ?_)
    match a with
    | ⟨0, _⟩ => show win1_5.index t (0 : Fin 2) * 256 + 1 * (y 0).val = (y 0).val; omega
    | ⟨1, _⟩ => show win1_5.index t (1 : Fin 2) * 256 + 1 * (y 1).val = (y 1).val; omega
  · funext y
    show V c main_v30 (((cfg1.win 6).blk t).view.emb y) = V c main_v30 y
    refine congrArg (V c main_v30) (funext fun a => Fin.ext ?_)
    match a with
    | ⟨0, _⟩ => show win1_6.index t (0 : Fin 2) * 256 + 1 * (y 0).val = (y 0).val; omega
    | ⟨1, _⟩ => show win1_6.index t (1 : Fin 2) * 256 + 1 * (y 1).val = (y 1).val; omega
  · funext y
    show V c main_v31 (((cfg1.win 7).blk t).view.emb y) = V c main_v31 y
    refine congrArg (V c main_v31) (funext fun a => Fin.ext ?_)
    match a with
    | ⟨0, _⟩ => show win1_7.index t (0 : Fin 2) * 1 + 1 * (y 0).val = (y 0).val; omega
    | ⟨1, _⟩ => show win1_7.index t (1 : Fin 2) * 256 + 1 * (y 1).val = (y 1).val; omega

/-- An index of the output array is in point t's block iff each coordinate is in the block's range on its axis. -/
theorem mem_block (t : Fin cfg1.N) (i : S80000x256.Idx) :
    i ∈ ((cfg1.win 8).blk t).view.set ↔ ∀ a : Fin 2, win1_8.index t a * S2000x256.size a ≤ (i a).val
      ∧ (i a).val < win1_8.index t a * S2000x256.size a + S2000x256.size a := by
  show i ∈ ((View.whole main_v32).slice (win1_8.rect t)).set ↔ _
  rw [View.set_slice_whole, Rect.mem_set_unit]
  exact Iff.rfl

/-- Row n of the output is in the block of point n / 2000. -/
theorem covered (i : S80000x256.Idx) :
    ∃ t : Fin cfg1.N, (cfg1.win 8).flush t = true ∧ i ∈ ((cfg1.win 8).blk t).view.set := by
  have hi0 : (i 0).val < 80000 := (i 0).isLt
  have hi1 : (i 1).val < 256 := (i 1).isLt
  have hN : grid1.N = 40 := N_1
  have ht : (i 0).val / 2000 < cfg1.N := by show (i 0).val / 2000 < grid1.N; omega
  obtain ⟨-, -, -, -, -, -, -, -, -, -, -, -, -, -, -, -, e80, e81⟩ := block_indices ⟨(i 0).val / 2000, ht⟩
  refine ⟨⟨(i 0).val / 2000, ht⟩, flush1_8 _, ?_⟩
  rw [mem_block]
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    rw [e80]; show (i 0).val / 2000 * 2000 ≤ (i 0).val ∧ (i 0).val < (i 0).val / 2000 * 2000 + 2000; omega
  | ⟨1, _⟩ =>
    show win1_8.index ⟨(i 0).val / 2000, ht⟩ (1 : Fin 2) * 256 ≤ (i 1).val
      ∧ (i 1).val < win1_8.index ⟨(i 0).val / 2000, ht⟩ (1 : Fin 2) * 256 + 256
    omega

/-- The output array when the region ends: the updated features, from the arrays as the region found them. -/
theorem update_array (c : Dev nD) :
    (dat1 V c).arrAt 8 cfg1.N
      = Layer.updOf (Ideal.ofBits .f32 0x358637BD#32) (Ideal.ofBits .f32 0x00000000#32) (V c main_v21) (V c main_v0)
        (fun n => V c main_v25 (ix2 (n 0) (0 : Fin 1))) (V c main_v26) (V c main_v29) (V c main_v30)
        (fun k => V c main_v27 (ix2 (0 : Fin 1) (k 0))) (fun k => V c main_v31 (ix2 (0 : Fin 1) (k 0))) :=
  (dat1 V c).arrAt_eq_of_cover 8 _ (fun t _ => flushed_update V c t) covered

end Cert.KernelIdeal.UpdateRegion

end
-- ==== Proof.LibRowForm.lean ====
/-
  A vector recast as a one-row matrix, read at an index.
-/
import Idealize.ShloMosaic.Lib.ValueIdx
import Idealize.ShloMosaic.Lib.Pipeline.Value

namespace Cert.RowForm

open Idealize.ShloMosaic

/-- A vector of length `n` recast as a `1 × n` matrix, read at row `0` and column `j`, is the vector at `j`. -/
theorem row_of_reshape {α : Type} {n : Nat} (v : (⟨1, ![n]⟩ : Shape).Idx → α)
    (h : (⟨1, ![n]⟩ : Shape).ShapeCasts ⟨2, ![1, n]⟩) (j : Fin n) :
    shapeCast (⟨2, ![1, n]⟩ : Shape) v h (ValueIdx.ix2 (0 : Fin 1) j) = v (ValueIdx.ix1 j) := by
  rw [shapeCast_addUnit_apply ![n] v h]
  congr 1
  funext a
  match a with
  | ⟨0, _⟩ => rfl

end Cert.RowForm
-- ==== Proof.KHost.lean ====
/-
  What each region finds in its arrays, and what the result buffer holds at the end, in terms of the arguments.

  The first stretch of host operations flattens the object and attribute features, splits the edge list into its
  destination row and source row, transposes the attribute-to-object weights and lays the bias out as a row. The table
  region then leaves the linear image of the attribute table. The second stretch gathers a table row per edge (a negative
  source index counted from the end), weights it, sums the weighted rows and the weights onto the destination rows,
  and lays out the projection and update weights. The update region leaves the updated features, which the last
  operation reshapes into the result.
-/
import proofs.«106027_j48077863912208_2_alg».proof.Proof.Gen.KernelIdeal.Frame
import proofs.«106027_j48077863912208_2_alg».proof.Proof.KBlocks0
import proofs.«106027_j48077863912208_2_alg».proof.Proof.KBlocks1
import proofs.«106027_j48077863912208_2_alg».proof.Proof.LibRowForm
import proofs.«106027_j48077863912208_2_alg».proof.Proof.LibColForm
import proofs.«106027_j48077863912208_2_alg».proof.Proof.Spec
import Idealize.ShloMosaic.Lib.StableHlo.Run
import Idealize.ShloMosaic.PureOps.Ideal
import Idealize.ShloMosaic.Lib.Pipeline.Value
import Idealize.ShloMosaic.Lib.ValueIdx

set_option maxRecDepth 16384

noncomputable section

open scoped BigOperators

namespace Cert.KernelIdeal.Boundary

open Cert.KernelIdeal Cert.KernelIdeal.Gen
open Idealize.ShloMosaic Idealize.ShloMosaic.TcCoe Idealize.ShloMosaic.ValueIdx Idealize.SL.Sem Idealize.ShloMosaic.StableHlo

/-! ## The host terms, named -/

/-- Row k of the 2×E edge list as a vector of E words. -/
abbrev dstOf (a2 : IVec S2x800000 32) : IVec S800000 32 :=
  shapeCast S800000 (extractStridedSlice S1x800000 ![0, 0] a2 slices_S2x800000_S1x800000_0_0) shapeCasts_S1x800000_S800000
abbrev srcOf (a2 : IVec S2x800000 32) : IVec S800000 32 :=
  shapeCast S800000 (extractStridedSlice S1x800000 ![1, 0] a2 slices_S2x800000_S1x800000_1_0) shapeCasts_S1x800000_S800000

/-- The source rows as gather start indices: a negative index counted from the end of the 16000 rows, as a column. -/
abbrev srcCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 16000#32))) s)

/-- The edge weights stretched over the 256 columns. -/
abbrev wCols (w : FVec Ideal S800000 .f32) : FVec Ideal S800000x256 .f32 :=
  broadcastInDim S800000x256 ![0, 1] bcast_S800000x1_S800000x256_0_1 (broadcastInDim S800000x1 ![0] bcast_S800000_S800000x1_0 w)

/-- The rows U summed onto the destination rows d, from zero. -/
abbrev segRows (d : IVec S800000 32) (U : FVec Ideal S800000x256 .f32) : FVec Ideal S80000x256 .f32 :=
  Host.scatterAdd scatter_S80000x256_S800000x1_S800000x256_1_0_0_1
    (broadcastInDim S80000x256 ![] bcast_S_S80000x256 (constant S_ .f32 0x00000000#32))
    (broadcastInDim S800000x1 ![0] bcast_S800000_S800000x1_0 d) U

/-- The entries u summed onto the destination rows d, from zero. -/
abbrev segVec (d : IVec S800000 32) (u : FVec Ideal S800000 .f32) : FVec Ideal S80000 .f32 :=
  Host.scatterAdd scatter_S80000_S800000x1_S800000_n_0_0_1
    (broadcastInDim S80000 ![] bcast_S_S80000 (constant S_ .f32 0x00000000#32))
    (broadcastInDim S800000x1 ![0] bcast_S800000_S800000x1_0 d) u

variable (m : (ℓ : Loc nD τ sig) → Buf (Elt Ideal) ℓ) (ρ : Dev nD → PrngReg)

/-! ## What the table region finds -/

theorem table_in_x (c : Dev nD) : V1 m ρ c main_v1 = shapeCast S16000x128 (m ((c : Thread nD τ).loc main_arg1)) shapeCasts_S8x2000x128_S16000x128 := by
  show StableHlo.after hostOps0 (W0 m ρ c) (Proc.devRef .tc main_v1) = _
  after_results_simp <;> rfl
theorem table_in_w (c : Dev nD) : V1 m ρ c main_v6 = transpose S128x256 [1, 0] (m ((c : Thread nD τ).loc main_arg4)) transposes_S256x128_S128x256_1_0 := by
  show StableHlo.after hostOps0 (W0 m ρ c) (Proc.devRef .tc main_v6) = _
  after_results_simp <;> rfl
theorem table_in_b (c : Dev nD) : V1 m ρ c main_v7 = shapeCast S1x256 (m ((c : Thread nD τ).loc main_arg5)) shapeCasts_S256_S1x256 := by
  show StableHlo.after hostOps0 (W0 m ρ c) (Proc.devRef .tc main_v7) = _
  after_results_simp <;> rfl

/-- The table of given arrays: the flattened attribute features through the transposed weights, plus the bias. -/
abbrev tableFn (a1 : FVec Ideal S8x2000x128 .f32) (a4 : FVec Ideal S256x128 .f32) (a5 : FVec Ideal S256 .f32) :
    S16000x256.Idx → EReal :=
  Layer.tableOf (shapeCast S16000x128 a1 shapeCasts_S8x2000x128_S16000x128)
    (transpose S128x256 [1, 0] a4 transposes_S256x128_S128x256_1_0) a5

/-- The table as the arguments give it. -/
abbrev tableArg (c : Dev nD) : S16000x256.Idx → EReal := tableFn (m ((c : Thread nD τ).loc main_arg1)) (m ((c : Thread nD τ).loc main_arg4)) (m ((c : Thread nD τ).loc main_arg5))

/-- A vector laid out as a row, read back along the row, is the vector. -/
theorem row_back (v : S256.Idx → EReal) : (fun j : S256.Idx => shapeCast S1x256 v shapeCasts_S256_S1x256 (ix2 (0 : Fin 1) (j 0))) = v := by
  funext j
  obtain ⟨q, rfl⟩ : ∃ q : Fin 256, j = ix1 q := ⟨j 0, eq_ix1 j⟩
  exact Cert.RowForm.row_of_reshape v shapeCasts_S256_S1x256 q

/-- When the table region ends its output holds the table. -/
theorem table_out (c : Dev nD) : W2 m ρ c (Proc.devRef .tc main_v8) = tableArg m c := by
  refine (W2_arr m ρ c 3).trans ((TableRegion.table_array (V1 m ρ) c).trans ?_)
  rw [table_in_x, table_in_w, table_in_b, row_back]

/-! ## What the second stretch reads of the first -/

/-- The destination rows pass the table region untouched. -/
theorem kept_dst (c : Dev nD) : W2 m ρ c (Proc.devRef .tc main_v3) = dstOf (m ((c : Thread nD τ).loc main_arg2)) :=
  (W2_of_ne m ρ c main_v3 (by decide)).trans (by
    show StableHlo.after hostOps0 (W0 m ρ c) (Proc.devRef .tc main_v3) = _
    after_results_simp <;> rfl)

/-- The source rows pass the table region untouched. -/
theorem kept_src (c : Dev nD) : W2 m ρ c (Proc.devRef .tc main_v5) = srcOf (m ((c : Thread nD τ).loc main_arg2)) :=
  (W2_of_ne m ρ c main_v5 (by decide)).trans (by
    show StableHlo.after hostOps0 (W0 m ρ c) (Proc.devRef .tc main_v5) = _
    after_results_simp <;> rfl)

/-- The flattened object features pass the table region untouched. -/
theorem kept_obj (c : Dev nD) : W2 m ρ c (Proc.devRef .tc main_v0) = shapeCast S80000x256 (m ((c : Thread nD τ).loc main_arg0)) shapeCasts_S8x10000x256_S80000x256 :=
  (W2_of_ne m ρ c main_v0 (by decide)).trans (by
    show StableHlo.after hostOps0 (W0 m ρ c) (Proc.devRef .tc main_v0) = _
    after_results_simp <;> rfl)

/-- An argument passes the first stretch and the table region untouched. -/
theorem kept_arg3 (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results_simp <;> rfl)

/-- An argument passes the first stretch and the table region untouched. -/
theorem kept_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

/-- An argument passes the first stretch and the table region untouched. -/
theorem kept_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

/-- An argument passes the first stretch and the table region untouched. -/
theorem kept_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results_simp <;> rfl)

/-- An argument passes the first stretch and the table region untouched. -/
theorem kept_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)

/-! ## What the update region finds -/

/-- The weighted messages of given arrays: for each edge the table row of its source, times the edge's weight. -/
abbrev msgsFn (a1 : FVec Ideal S8x2000x128 .f32) (a2 : IVec S2x800000 32) (a3 : FVec Ideal S800000 .f32)
    (a4 : FVec Ideal S256x128 .f32) (a5 : FVec Ideal S256 .f32) : FVec Ideal S800000x256 .f32 :=
  mulf (Host.gather gather_S16000x256_S800000x1_S800000x256_1_0_n_n_0_1_1256 (tableFn a1 a4 a5) (srcCol (srcOf a2))) (wCols a3)

/-- The weighted messages as the arguments give them. -/
abbrev msgs (c : Dev nD) : FVec Ideal S800000x256 .f32 := msgsFn (m ((c : Thread nD τ).loc main_arg1)) (m ((c : Thread nD τ).loc main_arg2)) (m ((c : Thread nD τ).loc main_arg3)) (m ((c : Thread nD τ).loc main_arg4)) (m ((c : Thread nD τ).loc main_arg5))

theorem update_in_agg (c : Dev nD) : V3 m ρ c main_v21 = segRows (dstOf (m ((c : Thread nD τ).loc main_arg2))) (msgs m c) := by
  show StableHlo.after hostOps1 (W2 m ρ c) (Proc.devRef .tc main_v21) = _
  after_results_simp
  rw [table_out, kept_dst, kept_src, kept_arg3]
theorem update_in_ws (c : Dev nD) : V3 m ρ c main_v25
    = shapeCast S80000x1 (segVec (dstOf (m ((c : Thread nD τ).loc main_arg2))) (m ((c : Thread nD τ).loc main_arg3))) shapeCasts_S80000_S80000x1 := by
  show StableHlo.after hostOps1 (W2 m ρ c) (Proc.devRef .tc main_v25) = _
  after_results_simp
  rw [kept_dst, kept_arg3]
  rfl
theorem update_in_obj (c : Dev nD) : V3 m ρ c main_v0 = shapeCast S80000x256 (m ((c : Thread nD τ).loc main_arg0)) shapeCasts_S8x10000x256_S80000x256 := by
  show StableHlo.after hostOps1 (W2 m ρ c) (Proc.devRef .tc main_v0) = _
  after_results_simp
  rw [kept_obj]
theorem update_in_wp (c : Dev nD) : V3 m ρ c main_v26 = transpose S256x256 [1, 0] (m ((c : Thread nD τ).loc main_arg6)) transposes_S256x256_S256x256_1_0 := by
  show StableHlo.after hostOps1 (W2 m ρ c) (Proc.devRef .tc main_v26) = _
  after_results_simp
  rw [kept_arg6]
theorem update_in_bp (c : Dev nD) : V3 m ρ c main_v27 = shapeCast S1x256 (m ((c : Thread nD τ).loc main_arg7)) shapeCasts_S256_S1x256 := by
  show StableHlo.after hostOps1 (W2 m ρ c) (Proc.devRef .tc main_v27) = _
  after_results_simp
  rw [kept_arg7]
  rfl
theorem update_in_top (c : Dev nD) : V3 m ρ c main_v29
    = extractStridedSlice S256x256 ![0, 0] (transpose S512x256 [1, 0] (m ((c : Thread nD τ).loc main_arg8)) transposes_S256x512_S512x256_1_0) slices_S512x256_S256x256_0_0 := by
  show StableHlo.after hostOps1 (W2 m ρ c) (Proc.devRef .tc main_v29) = _
  after_results_simp
  rw [kept_arg8]
theorem update_in_bot (c : Dev nD) : V3 m ρ c main_v30
    = extractStridedSlice S256x256 ![256, 0] (transpose S512x256 [1, 0] (m ((c : Thread nD τ).loc main_arg8)) transposes_S256x512_S512x256_1_0) slices_S512x256_S256x256_256_0 := by
  show StableHlo.after hostOps1 (W2 m ρ c) (Proc.devRef .tc main_v30) = _
  after_results_simp
  rw [kept_arg8]
theorem update_in_bu (c : Dev nD) : V3 m ρ c main_v31 = shapeCast S1x256 (m ((c : Thread nD τ).loc main_arg9)) shapeCasts_S256_S1x256 := by
  show StableHlo.after hostOps1 (W2 m ρ c) (Proc.devRef .tc main_v31) = _
  after_results_simp
  rw [kept_arg9]
  rfl

end Cert.KernelIdeal.Boundary

end
-- ==== Proof.KOut.lean ====
/-
  The idealized kernel's result as one function of its arguments.

  The update region's output is the updated features of the arrays it finds; those arrays are the segment sums of the
  weighted table rows and of the weights, the flattened object features, and the laid-out weights and biases. A bias laid
  out as a row and read back along the row is the bias; a vector laid out as a column and read back down the column is
  the vector; the two 256-row slices of the transposed update weights are its upper and lower halves. The result is
  the reshape of the update region's output.
-/
import proofs.«106027_j48077863912208_2_alg».proof.Proof.KRun
import proofs.«106027_j48077863912208_2_alg».proof.Proof.KHost

set_option maxRecDepth 16384

noncomputable section

open scoped BigOperators

namespace Cert.KernelIdeal.Boundary

open Cert.KernelIdeal Cert.KernelIdeal.Gen
open Idealize.ShloMosaic Idealize.ShloMosaic.TcCoe Idealize.ShloMosaic.ValueIdx Idealize.SL.Sem Idealize.ShloMosaic.StableHlo

/-- A vector laid out as a column, read back down the column, is the vector. -/
theorem col_back (v : S80000.Idx → EReal) :
    (fun n : S80000.Idx => shapeCast S80000x1 v shapeCasts_S80000_S80000x1 (ix2 (n 0) (0 : Fin 1))) = v := by
  funext n
  obtain ⟨q, rfl⟩ : ∃ q : Fin 80000, n = ix1 q := ⟨n 0, eq_ix1 n⟩
  exact Cert.ColForm.col_of_reshape v shapeCasts_S80000_S80000x1 q

/-- Rows 0 … 255 of a 512-row matrix are its upper half. -/
theorem top_slice (wu : S512x256.Idx → EReal) :
    extractStridedSlice S256x256 ![0, 0] wu slices_S512x256_S256x256_0_0 = Layer.topOf wu := by
  funext i
  obtain ⟨a, b, rfl⟩ : ∃ (a : Fin 256) (b : Fin 256), i = ix2 a b := ⟨i 0, i 1, eq_ix2 i⟩
  refine extractStridedSlice_apply ![0, 0] wu slices_S512x256_S256x256_0_0 (ix2 a b) (ix2 (Layer.lo a) b) fun ax => ?_
  match ax with
  | ⟨0, _⟩ => show a.val = 0 + a.val; omega
  | ⟨1, _⟩ => show b.val = 0 + b.val; omega

/-- Rows 256 … 511 of a 512-row matrix are its lower half. -/
theorem bot_slice (wu : S512x256.Idx → EReal) :
    extractStridedSlice S256x256 ![256, 0] wu slices_S512x256_S256x256_256_0 = Layer.botOf wu := by
  funext i
  obtain ⟨a, b, rfl⟩ : ∃ (a : Fin 256) (b : Fin 256), i = ix2 a b := ⟨i 0, i 1, eq_ix2 i⟩
  refine extractStridedSlice_apply ![256, 0] wu slices_S512x256_S256x256_256_0 (ix2 a b) (ix2 (Layer.hi a) b) fun ax => ?_
  match ax with
  | ⟨0, _⟩ => show 256 + a.val = 256 + a.val; rfl
  | ⟨1, _⟩ => show b.val = 0 + b.val; omega

variable (m : (ℓ : Loc nD τ sig) → Buf (Elt Ideal) ℓ) (ρ : Dev nD → PrngReg)

/-- The updated features of given arrays. -/
abbrev updFn (a0 : FVec Ideal S8x10000x256 .f32) (a1 : FVec Ideal S8x2000x128 .f32) (a2 : IVec S2x800000 32)
    (a3 : FVec Ideal S800000 .f32) (a4 : FVec Ideal S256x128 .f32) (a5 : FVec Ideal S256 .f32)
    (a6 : FVec Ideal S256x256 .f32) (a7 : FVec Ideal S256 .f32) (a8 : FVec Ideal S256x512 .f32)
    (a9 : FVec Ideal S256 .f32) : S80000x256.Idx → EReal :=
  Layer.updOf (Ideal.ofBits .f32 0x358637BD#32) (Ideal.ofBits .f32 0x00000000#32)
      (segRows (dstOf a2) (msgsFn a1 a2 a3 a4 a5))
      (shapeCast S80000x256 a0 shapeCasts_S8x10000x256_S80000x256)
      (segVec (dstOf a2) a3)
      (transpose S256x256 [1, 0] a6 transposes_S256x256_S256x256_1_0)
      (Layer.topOf (transpose S512x256 [1, 0] a8 transposes_S256x512_S512x256_1_0))
      (Layer.botOf (transpose S512x256 [1, 0] a8 transposes_S256x512_S512x256_1_0))
      a7 a9

/-- The updated features as the arguments give them. -/
abbrev updArg (c : Dev nD) : S80000x256.Idx → EReal :=
  updFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The result of given arrays: the updated features, reshaped into batches. -/
abbrev resultFn (a0 : FVec Ideal S8x10000x256 .f32) (a1 : FVec Ideal S8x2000x128 .f32) (a2 : IVec S2x800000 32)
    (a3 : FVec Ideal S800000 .f32) (a4 : FVec Ideal S256x128 .f32) (a5 : FVec Ideal S256 .f32)
    (a6 : FVec Ideal S256x256 .f32) (a7 : FVec Ideal S256 .f32) (a8 : FVec Ideal S256x512 .f32)
    (a9 : FVec Ideal S256 .f32) : S8x10000x256.Idx → EReal :=
  shapeCast S8x10000x256 (updFn a0 a1 a2 a3 a4 a5 a6 a7 a8 a9) shapeCasts_S80000x256_S8x10000x256

/-- The result as the arguments give it. -/
abbrev resultArg (c : Dev nD) : S8x10000x256.Idx → EReal :=
  resultFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- When the update region ends its output holds the updated features. -/
theorem update_out (c : Dev nD) : W4 m ρ c (Proc.devRef .tc main_v32) = updArg m c := by
  refine (W4_arr m ρ c 8).trans ((UpdateRegion.update_array (V3 m ρ) c).trans ?_)
  rw [update_in_agg, update_in_ws, update_in_obj, update_in_wp, update_in_bp, update_in_top, update_in_bot, update_in_bu,
    row_back, row_back, col_back, top_slice, bot_slice]

/-- The result buffer at the last boundary: the updated features, reshaped. -/
theorem result_out (c : Dev nD) : W5 m ρ c (Proc.devRef .tc main_v33) = resultArg m c := by
  have h : W5 m ρ c (Proc.devRef .tc main_v33)
      = shapeCast S8x10000x256 (W4 m ρ c (Proc.devRef .tc main_v32)) shapeCasts_S80000x256_S8x10000x256 := by
    show StableHlo.after hostOps2 (W4 m ρ c) (Proc.devRef .tc main_v33) = _
    after_results
    rfl
  rw [h, update_out]

/-- Every weakly fair execution of the idealized kernel terminates, nothing faulting, with the result buffer at the
    updated features of the arguments, reshaped, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v33) = resultArg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_out m ρ c), (h c).2⟩) (Out.run_out (F := Ideal) m ρ)

end Cert.KernelIdeal.Boundary

end
-- ==== Proof.RefAt.lean ====
/-
  The reference's updated features, index by index.

  The reference floors the weight sums at eps (the maximum taken with the operands the other way round), divides the
  aggregated messages by them, projects, joins the object features and the projected messages side by side into 512
  columns and multiplies by the transposed update weights: the 512-term contraction is the sum over the first 256 columns
  (the object features against the upper half of the weights) plus the sum over the last 256 (the projected messages
  against the lower half). Then the bias and relu.
-/
import proofs.«106027_j48077863912208_2_alg».proof.Proof.Gen.ReferenceIdeal.Read
import proofs.«106027_j48077863912208_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The stages' operand indices at explicit coordinates -/

theorem lidx32 (n : Fin 80000) (k l : Fin 256) : lidx_main_v32 (ix2 n k) l = ix2 n l := funext fun a => Fin.ext (by match a with | ⟨0, _⟩ => rfl | ⟨1, _⟩ => rfl)
theorem ridx32 (n : Fin 80000) (k l : Fin 256) : ridx_main_v32 (ix2 n k) l = ix2 l k := funext fun a => Fin.ext (by match a with | ⟨0, _⟩ => rfl | ⟨1, _⟩ => rfl)
theorem lidx38 (n : Fin 80000) (j : Fin 256) (k : Fin 512) : lidx_main_v38 (ix2 n j) k = ix2 n k := funext fun a => Fin.ext (by match a with | ⟨0, _⟩ => rfl | ⟨1, _⟩ => rfl)
theorem ridx38 (n : Fin 80000) (j : Fin 256) (k : Fin 512) : ridx_main_v38 (ix2 n j) k = ix2 k j := funext fun a => Fin.ext (by match a with | ⟨0, _⟩ => rfl | ⟨1, _⟩ => rfl)
theorem idx29 (n : Fin 80000) (l : Fin 256) : idx_main_v28 (idx_main_v29 (ix2 n l)) = ix1 n := funext fun a => Fin.ext (by match a with | ⟨0, _⟩ => rfl)
theorem idx34 (n : Fin 80000) (k : Fin 256) : idx_main_v33 (idx_main_v34 (ix2 n k)) = ix1 k := funext fun a => Fin.ext (by match a with | ⟨0, _⟩ => rfl)
theorem idx40 (n : Fin 80000) (j : Fin 256) : idx_main_v39 (idx_main_v40 (ix2 n j)) = ix1 j := funext fun a => Fin.ext (by match a with | ⟨0, _⟩ => rfl)

variable (x0 : (⟨S8x10000x256, .f32⟩ : BufTy).Contents (Elt Ideal)) (x1 : (⟨S8x2000x128, .f32⟩ : BufTy).Contents (Elt Ideal))
    (x2 : (⟨S2x800000, .i32⟩ : BufTy).Contents (Elt Ideal)) (x3 : (⟨S800000, .f32⟩ : BufTy).Contents (Elt Ideal))
    (x4 : (⟨S256x128, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x512, .f32⟩ : BufTy).Contents (Elt Ideal)) (x9 : (⟨S256, .f32⟩ : BufTy).Contents (Elt Ideal))

/-- The floored weight sum of row n, stretched over the columns. -/
theorem clip_at (n : Fin 80000) (l : Fin 256) :
    val_main_v29 (F := Ideal) x2 x3 (ix2 n l) = max (val_main_v26 (F := Ideal) x2 x3 (ix1 n)) (Ideal.ofBits .f32 0x358637BD#32) := by
  rw [val_main_v29_apply, val_main_v28_apply, val_main_v27_apply, val_main_call0_v1_apply, val_main_call0_v0_apply,
    val_main_cst_2_apply, idx29]
  exact max_comm _ _

/-- The normalized messages at (n, l). -/
theorem div_at (n : Fin 80000) (l : Fin 256) :
    val_main_v30 (F := Ideal) x1 x2 x3 x4 x5 (ix2 n l)
      = Ideal.div (val_main_v23 (F := Ideal) x1 x2 x3 x4 x5 (ix2 n l))
          (max (val_main_v26 (F := Ideal) x2 x3 (ix1 n)) (Ideal.ofBits .f32 0x358637BD#32)) := by
  rw [val_main_v30_apply, clip_at]
  rfl

/-- The projected messages at (n, k). -/
theorem proj_at (n : Fin 80000) (k : Fin 256) :
    val_main_v35 (F := Ideal) x1 x2 x3 x4 x5 x6 x7 (ix2 n k)
      = Layer.projOf (Ideal.ofBits .f32 0x358637BD#32) (val_main_v23 (F := Ideal) x1 x2 x3 x4 x5)
          (val_main_v26 (F := Ideal) x2 x3) (val_main_v31 (F := Ideal) x6) x7 n k := by
  rw [val_main_v35_apply, val_main_v32_apply, val_main_v34_apply, val_main_v33_apply]
  unfold Layer.projOf
  refine congrArg₂ (· + ·) (Finset.sum_congr rfl fun l _ => ?_) (congrArg x7 (idx34 n k))
  rw [lidx32, ridx32, div_at]

/-- The first 256 columns of the joined array are the object features. -/
theorem join_left (n : Fin 80000) (k : Fin 256) :
    val_main_v36 (F := Ideal) x0 x1 x2 x3 x4 x5 x6 x7 (ix2 n (Layer.lo k)) = val_main_v0 (F := Ideal) x0 (ix2 n k) := by
  unfold val_main_v36
  exact concatenate_pair_apply_left (t := S80000x512) (s₁ := S80000x256) (s₂ := S80000x256) (1 : Fin 2)
    (val_main_v0 (F := Ideal) x0) (val_main_v35 (F := Ideal) x1 x2 x3 x4 x5 x6 x7) concatenates_S80000x256_S80000x256_S80000x512_d1
    (ix2 n (Layer.lo k)) rfl (ix2 n k) (fun b => by match b with | ⟨0, _⟩ => rfl | ⟨1, _⟩ => rfl)

/-- The last 256 columns of the joined array are the projected messages. -/
theorem join_right (n : Fin 80000) (k : Fin 256) :
    val_main_v36 (F := Ideal) x0 x1 x2 x3 x4 x5 x6 x7 (ix2 n (Layer.hi k)) = val_main_v35 (F := Ideal) x1 x2 x3 x4 x5 x6 x7 (ix2 n k) := by
  unfold val_main_v36
  exact concatenate_pair_apply_right (t := S80000x512) (s₁ := S80000x256) (s₂ := S80000x256) (1 : Fin 2)
    (val_main_v0 (F := Ideal) x0) (val_main_v35 (F := Ideal) x1 x2 x3 x4 x5 x6 x7) concatenates_S80000x256_S80000x256_S80000x512_d1
    (ix2 n (Layer.hi k)) rfl rfl (ix2 n k)
    (fun b hb => by match b with | ⟨0, _⟩ => rfl | ⟨1, _⟩ => exact absurd rfl hb)
    (by show k.val + 256 = 256 + k.val; omega)

/-- The reference's updated features are the layer's, of its own segment sums and laid-out weights. -/
theorem updated_eq :
    val_main_v42 (F := Ideal) x0 x1 x2 x3 x4 x5 x6 x7 x8 x9
      = Layer.updOf (Ideal.ofBits .f32 0x358637BD#32) (Ideal.ofBits .f32 0x00000000#32) (val_main_v23 (F := Ideal) x1 x2 x3 x4 x5) (val_main_v0 (F := Ideal) x0)
          (val_main_v26 (F := Ideal) x2 x3) (val_main_v31 (F := Ideal) x6) (Layer.topOf (val_main_v37 (F := Ideal) x8))
          (Layer.botOf (val_main_v37 (F := Ideal) x8)) x7 x9 := by
  funext i
  obtain ⟨n, j, rfl⟩ : ∃ (n : Fin 80000) (j : Fin 256), i = ix2 n j := ⟨i 0, i 1, eq_ix2 i⟩
  rw [val_main_v42_apply, val_main_v41_apply, val_main_v38_apply, val_main_call1_v0_apply, val_main_call1_cst_apply,
    val_main_v40_apply, val_main_v39_apply, Layer.sum_halves]
  unfold Layer.updOf Layer.topOf Layer.botOf
  refine congrArg₂ max (congrArg₂ (· + ·) (congrArg₂ (· + ·) (Finset.sum_congr rfl fun k _ => ?_)
    (Finset.sum_congr rfl fun k _ => ?_)) (congrArg x9 (idx40 n j))) rfl
  · rw [lidx38, ridx38, join_left]
  · rw [lidx38, ridx38, join_right, proj_at]

end Cert.ReferenceIdeal.RefValue

end
-- ==== Proof.LibRowIdx.lean ====
/-
  Row gathers and row scatters read at an index.

  A graph layer moves rows: `h[src]` gathers row `src e` of an `[N, C]` array for every edge `e`, and a segment sum
  scatters row `e` of an `[M, C]` array onto row `dst e` of an `[N, C]` array. The start indices come as an `[M, 1]`
  array of words. A gather reads its start index as a signed integer and clamps it into `[0, N - 1]`; a scatter
  reads it signed and DROPS the row when it is outside `[0, N)`. The same for a flat `[N]` array and `[M]` updates.
  Each statement is for the dimension numbers as a record over any extents; a program's own record is one of these
  at its literal extents.
-/
import Idealize.ShloMosaic.PureOps.ShapeOps
import Idealize.ShloMosaic.Lib.ValueIdx

noncomputable section

namespace Idealize.ShloMosaic.RowIdx

open Idealize.ShloMosaic.ValueIdx

variable {α : Type}

/-- An axis is kept exactly when it is not among the removed ones. -/
theorem mem_kept {s : Shape} (axes : List (Fin s.rank)) (a : Fin s.rank) : a ∈ s.kept axes ↔ a ∉ axes := by
  simp [Shape.kept, List.mem_filter, List.mem_finRange]

theorem one_ne_zero_fin2 : (1 : Fin 2) ≠ 0 := by decide

/-! ## The four dimension-number records -/

/-- Rows of an `[N, C]` operand gathered at `[M, 1]` start indices into `[M, C]`. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Elements of an `[N]` operand gathered at `[M, 1]` start indices into `[M]`. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Rows of `[M, C]` updates scattered at `[M, 1]` indices onto an `[N, C]` operand. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Elements of `[M]` updates scattered at `[M, 1]` indices onto an `[N]` operand. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The row a gather reads for the start word `b`: `b` as a signed integer, clamped into `[0, N - 1]`. -/
def clampRow (N : Nat) {w : Nat} (hN : 0 < N) (b : BitVec w) : Fin N := ⟨min b.toInt.toNat (N - 1), by omega⟩

/-! ## The gathers -/

/-- The row gather at `(e, c)`: the operand at the clamped row of edge `e`, column `c`. -/
theorem rowGather_apply {N C M w : Nat} (hN : 0 < N) (wf) (x : (⟨2, ![N, C]⟩ : Shape).Idx → α) (idx : IVec ⟨2, ![M, 1]⟩ w)
    (e : Fin M) (c : Fin C) :
    Host.gather (rowGather N C M wf) x idx (ix2 e c) = x (ix2 (clampRow N hN (idx (ix2 e (0 : Fin 1)))) c) := by
  unfold Host.gather
  refine congrArg x (funext fun a => ?_)
  match a with
  | ⟨0, _⟩ =>
    refine Fin.ext ?_
    show (rowGather N C M wf).start (ix2 e c) idx 0 + (rowGather N C M wf).batchCoord (ix2 e c) 0
      + (rowGather N C M wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e c) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGather N C M wf).start (ix2 e c) idx 1 + (rowGather N C M wf).batchCoord (ix2 e c) 1
      + (rowGather N C M wf).offCoord (ix2 e c) 1 = c.val
    rw [GatherDims.batchCoord_eq_zero _ _ _ List.not_mem_nil]
    have hs : (rowGather N C M wf).start (ix2 e c) idx 1 = 0 := by
      unfold GatherDims.start
      rw [dif_neg (show (1 : Fin 2) ∉ (rowGather N C M wf).startIndexMap from fun h => one_ne_zero_fin2 (List.mem_singleton.mp h))]
    have ho : (rowGather N C M wf).offCoord (ix2 e c) 1 = c.val := by
      unfold GatherDims.offCoord
      rw [dif_pos ((GatherDims.mem_sKept _ _).mpr ⟨fun h => one_ne_zero_fin2 (List.mem_singleton.mp h), List.not_mem_nil⟩)]
      rfl
    rw [hs, ho]; omega

/-- The flat gather at `e`: the operand at the clamped start of edge `e`. -/
theorem vecGather_apply {N M w : Nat} (hN : 0 < N) (wf) (x : (⟨1, ![N]⟩ : Shape).Idx → α) (idx : IVec ⟨2, ![M, 1]⟩ w)
    (e : Fin M) :
    Host.gather (vecGather N M wf) x idx (ix1 e) = x (ix1 (clampRow N hN (idx (ix2 e (0 : Fin 1))))) := by
  unfold Host.gather
  refine congrArg x (funext fun a => ?_)
  match a with
  | ⟨0, _⟩ =>
    refine Fin.ext ?_
    show (vecGather N M wf).start (ix1 e) idx 0 + (vecGather N M wf).batchCoord (ix1 e) 0
      + (vecGather N M wf).offCoord (ix1 e) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N M wf).startIndexMap from List.mem_singleton.mpr rfl)]
    have hsi : (vecGather N M wf).siIdx (ix1 e) ⟨List.idxOf (0 : Fin 1) (vecGather N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The scatters -/

/-- Where row `e`, column `c` of the updates lands: on row `idx e` read signed, same column, when that row is inside
    the operand; nowhere otherwise. -/
theorem rowScatter_resultIdx? {N C M w : Nat} (wf) (idx : IVec ⟨2, ![M, 1]⟩ w) (e : Fin M) (c : Fin C) :
    (rowScatter N C M wf).resultIdx? (ix2 e c) idx =
      if h : 0 ≤ (idx (ix2 e (0 : Fin 1))).toInt ∧ (idx (ix2 e (0 : Fin 1))).toInt < (N : Int) then
        some (ix2 (⟨(idx (ix2 e (0 : Fin 1))).toInt.toNat, by omega⟩ : Fin N) c)
      else none := by
  have hsi : (rowScatter N C M wf).siIdx (ix2 e c) ⟨List.idxOf (0 : Fin 2) (rowScatter N C M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl), hsi]
  have hs1 : (rowScatter N C M wf).start (ix2 e c) idx 1 = 0 := by
    unfold ScatterDims.start
    rw [dif_neg (show (1 : Fin 2) ∉ (rowScatter N C M wf).scatterDimsToOperandDims from fun h => one_ne_zero_fin2 (List.mem_singleton.mp h))]
  have hw0 : (rowScatter N C M wf).window (ix2 e c) 0 = 0 := by
    unfold ScatterDims.window
    rw [dif_neg (show (0 : Fin 2) ∉ (rowScatter N C M wf).sKept from fun h => (mem_kept _ _).mp h (List.mem_singleton.mpr rfl))]
  have hw1 : (rowScatter N C M wf).window (ix2 e c) 1 = c.val := by
    unfold ScatterDims.window
    rw [dif_pos (show (1 : Fin 2) ∈ (rowScatter N C M wf).sKept from (mem_kept _ _).mpr fun h => one_ne_zero_fin2 (List.mem_singleton.mp h))]
    rfl
  unfold ScatterDims.resultIdx?
  by_cases h : 0 ≤ (idx (ix2 e (0 : Fin 1))).toInt ∧ (idx (ix2 e (0 : Fin 1))).toInt < (N : Int)
  · have hall : ∀ a, 0 ≤ (rowScatter N C M wf).start (ix2 e c) idx a + (rowScatter N C M wf).window (ix2 e c) a ∧
        (rowScatter N C M wf).start (ix2 e c) idx a + (rowScatter N C M wf).window (ix2 e c) a
          < (⟨2, ![N, C]⟩ : Shape).size a := by
      intro a
      match a with
      | ⟨0, _⟩ =>
        show 0 ≤ (rowScatter N C M wf).start (ix2 e c) idx 0 + ((rowScatter N C M wf).window (ix2 e c) 0 : Int) ∧
          (rowScatter N C M wf).start (ix2 e c) idx 0 + ((rowScatter N C M wf).window (ix2 e c) 0 : Int) < (N : Int)
        rw [hs0, hw0]; omega
      | ⟨1, _⟩ =>
        show 0 ≤ (rowScatter N C M wf).start (ix2 e c) idx 1 + ((rowScatter N C M wf).window (ix2 e c) 1 : Int) ∧
          (rowScatter N C M wf).start (ix2 e c) idx 1 + ((rowScatter N C M wf).window (ix2 e c) 1 : Int) < (C : Int)
        rw [hs1, hw1]; have := c.isLt; omega
    rw [dif_pos hall, dif_pos h]
    refine congrArg some (funext fun a => ?_)
    match a with
    | ⟨0, _⟩ =>
      refine Fin.ext ?_
      show ((rowScatter N C M wf).start (ix2 e c) idx 0 + ((rowScatter N C M wf).window (ix2 e c) 0 : Int)).toNat
        = (idx (ix2 e (0 : Fin 1))).toInt.toNat
      rw [hs0, hw0]; simp
    | ⟨1, _⟩ =>
      refine Fin.ext ?_
      show ((rowScatter N C M wf).start (ix2 e c) idx 1 + ((rowScatter N C M wf).window (ix2 e c) 1 : Int)).toNat = c.val
      rw [hs1, hw1]; simp
  · rw [dif_neg h, dif_neg]
    intro hall
    have h0 := hall 0
    have h0' : 0 ≤ (rowScatter N C M wf).start (ix2 e c) idx 0 + ((rowScatter N C M wf).window (ix2 e c) 0 : Int) ∧
        (rowScatter N C M wf).start (ix2 e c) idx 0 + ((rowScatter N C M wf).window (ix2 e c) 0 : Int) < (N : Int) := h0
    rw [hs0, hw0] at h0'
    exact h ⟨by omega, by omega⟩

/-- Where element `e` of the updates lands: on `idx e` read signed, when that is inside the operand. -/
theorem vecScatter_resultIdx? {N M w : Nat} (wf) (idx : IVec ⟨2, ![M, 1]⟩ w) (e : Fin M) :
    (vecScatter N M wf).resultIdx? (ix1 e) idx =
      if h : 0 ≤ (idx (ix2 e (0 : Fin 1))).toInt ∧ (idx (ix2 e (0 : Fin 1))).toInt < (N : Int) then
        some (ix1 (⟨(idx (ix2 e (0 : Fin 1))).toInt.toNat, by omega⟩ : Fin N))
      else none := by
  have hsi : (vecScatter N M wf).siIdx (ix1 e) ⟨List.idxOf (0 : Fin 1) (vecScatter N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl), hsi]
  have hw0 : (vecScatter N M wf).window (ix1 e) 0 = 0 := by
    unfold ScatterDims.window
    rw [dif_neg (show (0 : Fin 1) ∉ (vecScatter N M wf).sKept from fun h => (mem_kept _ _).mp h (List.mem_singleton.mpr rfl))]
  unfold ScatterDims.resultIdx?
  by_cases h : 0 ≤ (idx (ix2 e (0 : Fin 1))).toInt ∧ (idx (ix2 e (0 : Fin 1))).toInt < (N : Int)
  · have hall : ∀ a, 0 ≤ (vecScatter N M wf).start (ix1 e) idx a + (vecScatter N M wf).window (ix1 e) a ∧
        (vecScatter N M wf).start (ix1 e) idx a + (vecScatter N M wf).window (ix1 e) a
          < (⟨1, ![N]⟩ : Shape).size a := by
      intro a
      match a with
      | ⟨0, _⟩ =>
        show 0 ≤ (vecScatter N M wf).start (ix1 e) idx 0 + ((vecScatter N M wf).window (ix1 e) 0 : Int) ∧
          (vecScatter N M wf).start (ix1 e) idx 0 + ((vecScatter N M wf).window (ix1 e) 0 : Int) < (N : Int)
        rw [hs0, hw0]; omega
    rw [dif_pos hall, dif_pos h]
    refine congrArg some (funext fun a => ?_)
    match a with
    | ⟨0, _⟩ =>
      refine Fin.ext ?_
      show ((vecScatter N M wf).start (ix1 e) idx 0 + ((vecScatter N M wf).window (ix1 e) 0 : Int)).toNat
        = (idx (ix2 e (0 : Fin 1))).toInt.toNat
      rw [hs0, hw0]; simp
  · rw [dif_neg h, dif_neg]
    intro hall
    have h0 := hall 0
    have h0' : 0 ≤ (vecScatter N M wf).start (ix1 e) idx 0 + ((vecScatter N M wf).window (ix1 e) 0 : Int) ∧
        (vecScatter N M wf).start (ix1 e) idx 0 + ((vecScatter N M wf).window (ix1 e) 0 : Int) < (N : Int) := h0
    rw [hs0, hw0] at h0'
    exact h ⟨by omega, by omega⟩

end Idealize.ShloMosaic.RowIdx

end
-- ==== Proof.Bridge.lean ====
/-
  The two programs compute one function.

  The kernel applies the attribute-to-object linear map to the 16000-row attribute table once and gathers a row of the
  result per edge; the reference gathers a row of the table per edge and applies the map to it. Both gathers read the same
  row — the edge's source index, a negative one counted from the end, clamped into the table — so the message of edge e
  at column j is, either way, the sum over k of x[row e, k] · wt[k, j], plus b[j]; weighted by the edge's weight it is
  the same array of updates, and the same segment sum. The rest of the layer is the same function of the same arrays.
-/
import proofs.«106027_j48077863912208_2_alg».proof.Proof.KOut
import proofs.«106027_j48077863912208_2_alg».proof.Proof.RefAt
import proofs.«106027_j48077863912208_2_alg».proof.Proof.LibRowIdx

set_option maxRecDepth 16384

noncomputable section

open scoped BigOperators

namespace Cert.Bridge

open Idealize.ShloMosaic Idealize.ShloMosaic.TcCoe Idealize.ShloMosaic.ValueIdx
open Cert.ReferenceIdeal.Read Cert.KernelIdeal.Boundary

theorem lidx14 (e : Fin 800000) (j : Fin 256) (k : Fin 128) : lidx_main_v14 (ix2 e j) k = ix2 e k := funext fun a => Fin.ext (by match a with | ⟨0, _⟩ => rfl | ⟨1, _⟩ => rfl)
theorem ridx14 (e : Fin 800000) (j : Fin 256) (k : Fin 128) : ridx_main_v14 (ix2 e j) k = ix2 k j := funext fun a => Fin.ext (by match a with | ⟨0, _⟩ => rfl | ⟨1, _⟩ => rfl)
theorem idx16 (e : Fin 800000) (j : Fin 256) : idx_main_v15 (idx_main_v16 (ix2 e j)) = ix1 j := funext fun a => Fin.ext (by match a with | ⟨0, _⟩ => rfl)

/-- The reference's gather of 128-column rows at (e, k): the operand at the clamped row of edge e. -/
theorem gather_rows128 (x : Cert.ReferenceIdeal.S16000x128.Idx → EReal) (idx : IVec Cert.ReferenceIdeal.S800000x1 32) (e : Fin 800000) (k : Fin 128) :
    Host.gather Cert.ReferenceIdeal.gather_S16000x128_S800000x1_S800000x128_1_0_n_n_0_1_1128 x idx (ix2 e k)
      = x (ix2 (RowIdx.clampRow 16000 (by decide) (idx (ix2 e (0 : Fin 1)))) k) :=
  RowIdx.rowGather_apply (N := 16000) (C := 128) (M := 800000) (by decide)
    Cert.ReferenceIdeal.gather_S16000x128_S800000x1_S800000x128_1_0_n_n_0_1_1128.wf x idx e k

/-- The kernel's gather of 256-column rows at (e, j): the operand at the clamped row of edge e. -/
theorem gather_rows256 (x : Cert.KernelIdeal.S16000x256.Idx → EReal) (idx : IVec Cert.KernelIdeal.S800000x1 32) (e : Fin 800000) (j : Fin 256) :
    Host.gather Cert.KernelIdeal.gather_S16000x256_S800000x1_S800000x256_1_0_n_n_0_1_1256 x idx (ix2 e j)
      = x (ix2 (RowIdx.clampRow 16000 (by decide) (idx (ix2 e (0 : Fin 1)))) j) :=
  RowIdx.rowGather_apply (N := 16000) (C := 256) (M := 800000) (by decide)
    Cert.KernelIdeal.gather_S16000x256_S800000x1_S800000x256_1_0_n_n_0_1_1256.wf x idx e j

variable (x0 : (⟨Cert.ReferenceIdeal.S8x10000x256, .f32⟩ : BufTy).Contents (Elt Ideal)) (x1 : (⟨Cert.ReferenceIdeal.S8x2000x128, .f32⟩ : BufTy).Contents (Elt Ideal))
    (x2 : (⟨Cert.ReferenceIdeal.S2x800000, .i32⟩ : BufTy).Contents (Elt Ideal)) (x3 : (⟨Cert.ReferenceIdeal.S800000, .f32⟩ : BufTy).Contents (Elt Ideal))
    (x4 : (⟨Cert.ReferenceIdeal.S256x128, .f32⟩ : BufTy).Contents (Elt Ideal)) (x5 : (⟨Cert.ReferenceIdeal.S256, .f32⟩ : BufTy).Contents (Elt Ideal))
    (x6 : (⟨Cert.ReferenceIdeal.S256x256, .f32⟩ : BufTy).Contents (Elt Ideal)) (x7 : (⟨Cert.ReferenceIdeal.S256, .f32⟩ : BufTy).Contents (Elt Ideal))
    (x8 : (⟨Cert.ReferenceIdeal.S256x512, .f32⟩ : BufTy).Contents (Elt Ideal)) (x9 : (⟨Cert.ReferenceIdeal.S256, .f32⟩ : BufTy).Contents (Elt Ideal))

/-- The weighted messages: the linear map after the gather is the gather after the linear map. -/
theorem msgs_eq : val_main_v20 (F := Ideal) x1 x2 x3 x4 x5 = msgsFn x1 x2 x3 x4 x5 := by
  funext i
  obtain ⟨e, j, rfl⟩ : ∃ (e : Fin 800000) (j : Fin 256), i = ix2 e j := ⟨i 0, i 1, eq_ix2 i⟩
  rw [val_main_v20_apply, val_main_v17_apply, val_main_v14_apply, val_main_v16_apply, val_main_v15_apply]
  show _ = Host.gather Cert.KernelIdeal.gather_S16000x256_S800000x1_S800000x256_1_0_n_n_0_1_1256 (tableFn x1 x4 x5)
      (srcCol (srcOf x2)) (ix2 e j) * wCols x3 (ix2 e j)
  rw [gather_rows256]
  unfold Cert.KernelIdeal.Boundary.tableFn Cert.Layer.tableOf
  refine congrArg₂ (· * ·) (congrArg₂ (· + ·) (Finset.sum_congr rfl fun k _ => ?_) (congrArg x5 (idx16 e j))) rfl
  rw [lidx14, ridx14]
  unfold val_main_v12
  rw [gather_rows128]
  rfl

/-- The aggregated messages are the same segment sum. -/
theorem agg_eq : val_main_v23 (F := Ideal) x1 x2 x3 x4 x5 = segRows (dstOf x2) (msgsFn x1 x2 x3 x4 x5) := by
  unfold val_main_v23
  rw [msgs_eq]
  rfl

/-- The reference's result is the kernel's function of the same arrays. -/
theorem result_eq : val_main_v43 (F := Ideal) x0 x1 x2 x3 x4 x5 x6 x7 x8 x9
    = resultFn x0 x1 x2 x3 x4 x5 x6 x7 x8 x9 := by
  unfold val_main_v43
  rw [Cert.ReferenceIdeal.RefValue.updated_eq, agg_eq]
  rfl

end Cert.Bridge

end
-- ==== Proof.lean ====
/-
  An attribute-to-object message-passing layer: the kernel against its reference, over the extended reals.

  For every edge e with source attribute s(e), destination object d(e) and weight w(e), the message is the attribute row
  x[s(e), ·] sent through a linear map (x[s(e), ·] · wt + b) and weighted by w(e); an object row n collects
  agg[n, ·] = Σ_{d(e) = n} w(e) · message(e) and ws[n] = Σ_{d(e) = n} w(e), and is updated to
  relu (obj[n, ·] · top + ((agg[n, ·] / max ws[n] eps) · wp + bp) · bot + bu), top and bot the two halves of the update
  weights. The reference applies the linear map to the gathered row of every edge and multiplies the joined row
  [obj[n, ·], proj[n, ·]] by the whole update matrix. The kernel applies the linear map once to each of the 16000 rows of
  the attribute table (four tiles of 4000 rows), gathers rows of the result, and computes the update in forty tiles of
  2000 object rows as two products added. The two agree entry by entry: a row gathered after the map is the map of the
  gathered row (same row, the same clamped index); a contraction over 512 joined columns is the sum of the contractions
  over its two halves; the maximum is symmetric; a change of float format is the identity on exact values. No law used
  needs finiteness, so the precondition is never opened.

  The three frames: the two kernel programs' are the generated frame certificates; the reference has no kernel, and its
  frame is its run with the result dropped. The idealization rewrote nothing, so it is preserved trivially.
-/
import proofs.«106027_j48077863912208_2_alg».proof.Defs
import proofs.«106027_j48077863912208_2_alg».proof.Proof.Gen.Kernel
import proofs.«106027_j48077863912208_2_alg».proof.Proof.Gen.Kernel.Skeleton
import proofs.«106027_j48077863912208_2_alg».proof.Proof.Gen.Kernel.Launch
import proofs.«106027_j48077863912208_2_alg».proof.Proof.Gen.Kernel.Points
import proofs.«106027_j48077863912208_2_alg».proof.Proof.Gen.Kernel.Frame
import proofs.«106027_j48077863912208_2_alg».proof.Proof.Gen.KernelIdeal
import proofs.«106027_j48077863912208_2_alg».proof.Proof.Gen.KernelIdeal.Skeleton
import proofs.«106027_j48077863912208_2_alg».proof.Proof.Gen.KernelIdeal.Launch
import proofs.«106027_j48077863912208_2_alg».proof.Proof.Gen.KernelIdeal.Points
import proofs.«106027_j48077863912208_2_alg».proof.Proof.Gen.KernelIdeal.Frame
import proofs.«106027_j48077863912208_2_alg».proof.Proof.Gen.ReferenceIdeal
import proofs.«106027_j48077863912208_2_alg».proof.Proof.Gen.Pre_finite_inputs
import proofs.«106027_j48077863912208_2_alg».proof.Proof.Gen.ReferenceIdeal.Run
import proofs.«106027_j48077863912208_2_alg».proof.Proof.Gen.ReferenceIdeal.Read
import proofs.«106027_j48077863912208_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference launches no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at the updated features of the
    arguments, reshaped: the kernel by its run read region by region, the reference by its run read operation by
    operation, the two terms one function of the arguments. -/
theorem algebraic : Cert.algebraic_KernelIdeal_ReferenceIdeal := by
  intro m ρ m' ρ' _ hagree
  refine ⟨fun c => Cert.KernelIdeal.Boundary.resultArg m c, Cert.KernelIdeal.Boundary.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v43_eq, h0, h1, h2, h3, h4, h5, h6, h7, h8, h9]
  exact Cert.Bridge.result_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
